-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x8 .f32) (main_arg9 : FVec F S1 .f32) (main_v33 : IVec S_ 1) : IVec S_ 1 :=
  let main_v34 : FVec F S1x8 .f32 := Host.absf main_arg8
  let main_cst_12 : FVec F S_ .f32 := constant S_ .f32 0x7F800000#32
  let main_v35 : FVec F S1x8 .f32 := broadcastInDim S1x8 ![] bcast_S_S1x8 main_cst_12
  let main_v36 : IVec S1x8 1 := cmpf .olt main_v34 main_v35
  let main_c_13 : IVec S_ 1 := constantI S_ 1 1#1
  let main_v37 : IVec S_ 1 := (fun x v => Host.reduce IntOp.andi x v reducesTo_S1x8_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S8x16 .f32) (main_arg6 : FVec F S8 .f32) (main_arg7 : FVec F S8x16 .f32) (main_arg8 : FVec F S1x8 .f32) (main_arg9 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S8x16 .f32 := Host.absf main_arg5
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x16 .f32 := Host.absf main_arg7
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S16x32 .f32) (main_arg3 : FVec F S16 .f32) (main_arg4 : FVec F S16x32 .f32) (main_arg5 : FVec F S8x16 .f32) (main_arg6 : FVec F S8 .f32) (main_arg7 : FVec F S8x16 .f32) (main_arg8 : FVec F S1x8 .f32) (main_arg9 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x16 : Shape := ⟨2, ![100000, 16]⟩
abbrev S4000x32 : Shape := ⟨2, ![4000, 32]⟩
abbrev S4000x16 : Shape := ⟨2, ![4000, 16]⟩
abbrev S32x16 : Shape := ⟨2, ![32, 16]⟩
abbrev S1600000x16 : Shape := ⟨2, ![1600000, 16]⟩
abbrev S100000x8 : Shape := ⟨2, ![100000, 8]⟩
abbrev S4000x1 : Shape := ⟨2, ![4000, 1]⟩
abbrev S4000x8 : Shape := ⟨2, ![4000, 8]⟩
abbrev S1x16 : Shape := ⟨2, ![1, 16]⟩
abbrev S16x8 : Shape := ⟨2, ![16, 8]⟩
abbrev S1600000x8 : Shape := ⟨2, ![1600000, 8]⟩
abbrev S4000 : Shape := ⟨1, ![4000]⟩
abbrev S1x1 : Shape := ⟨2, ![1, 1]⟩

abbrev nBuf : Space → Nat
  | .hbm => 59
  | .vmem => 30
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S16x32, .f32⟩
  | .hbm, ⟨3, _⟩ => ⟨S16, .f32⟩
  | .hbm, ⟨4, _⟩ => ⟨S16x32, .f32⟩
  | .hbm, ⟨5, _⟩ => ⟨S8x16, .f32⟩
  | .hbm, ⟨6, _⟩ => ⟨S8, .f32⟩
  | .hbm, ⟨7, _⟩ => ⟨S8x16, .f32⟩
  | .hbm, ⟨8, _⟩ => ⟨S1x8, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x16, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x16, .bf16⟩
  | .hbm, ⟨37, _⟩ => ⟨S1600000x16, .f32⟩
  | .hbm, ⟨38, _⟩ => ⟨S_, .f32⟩
  | .hbm, ⟨39, _⟩ => ⟨S100000x16, .f32⟩
  | .hbm, ⟨40, _⟩ => ⟨S1600000x1, .i32⟩
  | .hbm, ⟨41, _⟩ => ⟨S100000x16, .f32⟩
  | .hbm, ⟨42, _⟩ => ⟨S100000x8, .bf16⟩
  | .hbm, ⟨43, _⟩ => ⟨S100000x8, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x8, .bf16⟩
  | .hbm, ⟨53, _⟩ => ⟨S1600000x8, .f32⟩
  | .hbm, ⟨54, _⟩ => ⟨S_, .f32⟩
  | .hbm, ⟨55, _⟩ => ⟨S100000x8, .f32⟩
  | .hbm, ⟨56, _⟩ => ⟨S1600000x1, .i32⟩
  | .hbm, ⟨57, _⟩ => ⟨S100000x8, .f32⟩
  | .hbm, ⟨58, _⟩ => ⟨S100000x1, .f32⟩
  | .local _ .vmem, ⟨0, _⟩ => ⟨S4000x32, .f32⟩
  | .local _ .vmem, ⟨1, _⟩ => ⟨S4000x32, .f32⟩
  | .local _ .vmem, ⟨2, _⟩ => ⟨S16x32, .f32⟩
  | .local _ .vmem, ⟨3, _⟩ => ⟨S4000x16, .bf16⟩
  | .local _ .vmem, ⟨4, _⟩ => ⟨S4000x16, .bf16⟩
  | .local _ .vmem, ⟨5, _⟩ => ⟨S4000x32, .f32⟩
  | .local _ .vmem, ⟨6, _⟩ => ⟨S4000x32, .f32⟩
  | .local _ .vmem, ⟨7, _⟩ => ⟨S4000x16, .f32⟩
  | .local _ .vmem, ⟨8, _⟩ => ⟨S4000x16, .f32⟩
  | .local _ .vmem, ⟨9, _⟩ => ⟨S4000x1, .f32⟩
  | .local _ .vmem, ⟨10, _⟩ => ⟨S4000x1, .f32⟩
  | .local _ .vmem, ⟨11, _⟩ => ⟨S16x32, .f32⟩
  | .local _ .vmem, ⟨12, _⟩ => ⟨S16, .f32⟩
  | .local _ .vmem, ⟨13, _⟩ => ⟨S8x16, .f32⟩
  | .local _ .vmem, ⟨14, _⟩ => ⟨S8x16, .f32⟩
  | .local _ .vmem, ⟨15, _⟩ => ⟨S4000x8, .bf16⟩
  | .local _ .vmem, ⟨16, _⟩ => ⟨S4000x8, .bf16⟩
  | .local _ .vmem, ⟨17, _⟩ => ⟨S4000x8, .f32⟩
  | .local _ .vmem, ⟨18, _⟩ => ⟨S4000x8, .f32⟩
  | .local _ .vmem, ⟨19, _⟩ => ⟨S4000x8, .f32⟩
  | .local _ .vmem, ⟨20, _⟩ => ⟨S4000x8, .f32⟩
  | .local _ .vmem, ⟨21, _⟩ => ⟨S4000x8, .f32⟩
  | .local _ .vmem, ⟨22, _⟩ => ⟨S4000x8, .f32⟩
  | .local _ .vmem, ⟨23, _⟩ => ⟨S4000x1, .f32⟩
  | .local _ .vmem, ⟨24, _⟩ => ⟨S4000x1, .f32⟩
  | .local _ .vmem, ⟨25, _⟩ => ⟨S8, .f32⟩
  | .local _ .vmem, ⟨26, _⟩ => ⟨S1x8, .f32⟩
  | .local _ .vmem, ⟨27, _⟩ => ⟨S1, .f32⟩
  | .local _ .vmem, ⟨28, _⟩ => ⟨S4000x1, .f32⟩
  | .local _ .vmem, ⟨29, _⟩ => ⟨S4000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x8 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  inb_S4000x16_S4000x16_0_0 : ∀ a, (![0, 0] : Fin 2 → Nat) a + S4000x16.size a ≤ S4000x16.size a
  h_S4000x16 : 0 < S4000x16.numel
  packedbf16_S4000x16_S4000x16_0_0 : (Rect.unit (s := S4000x16) ![0, 0] S4000x16.size inb_S4000x16_S4000x16_0_0).PackedRows (EltTy.packing .bf16)
  bcast_S_S100000x16 : S_.BroadcastsInDim S100000x16 (![] : Fin 0 → Fin S100000x16.rank)
  shapeCasts_S4000x16_S4000x16 : S4000x16.ShapeCasts S4000x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S8x16_S8x16_0_0 : ∀ a, (![0, 0] : Fin 2 → Nat) a + S8x16.size a ≤ S8x16.size a
  h_S8x16 : 0 < S8x16.numel
  transposes_S8x16_p1_0_S16x8 : S8x16.Transposes [1, 0] S16x8
  inb_S4000x8_S4000x8_0_0 : ∀ a, (![0, 0] : Fin 2 → Nat) a + S4000x8.size a ≤ S4000x8.size a
  h_S4000x8 : 0 < S4000x8.numel
  packedbf16_S4000x8_S4000x8_0_0 : (Rect.unit (s := S4000x8) ![0, 0] S4000x8.size inb_S4000x8_S4000x8_0_0).PackedRows (EltTy.packing .bf16)
  bcast_S_S100000x8 : S_.BroadcastsInDim S100000x8 (![] : Fin 0 → Fin S100000x8.rank)
  shapeCasts_S4000x8_S4000x8 : S4000x8.ShapeCasts S4000x8
  broadcasts_S4000x1_S4000x8 : S4000x1.Broadcasts S4000x8
  inb_S8_S8_0 : ∀ a, (![0] : Fin 1 → Nat) a + S8.size a ≤ S8.size a
  h_S8 : 0 < S8.numel
  shapeCasts_S8_S1x8 : S8.ShapeCasts S1x8
  broadcasts_S1x8_S4000x8 : S1x8.Broadcasts S4000x8
  inb_S1x8_S1x8_0_0 : ∀ a, (![0, 0] : Fin 2 → Nat) a + S1x8.size a ≤ S1x8.size a
  h_S1x8 : 0 < S1x8.numel
  reduces_S4000x8_S4000 : S4000x8.Reduces [1] S4000
  shapeCasts_S4000_S4000x1 : S4000.ShapeCasts S4000x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  scatter_S100000_S1600000x1_S1600000_n_0_0_1_wf : ScatterDims.WF S100000 S1600000x1 S1600000 [] [0] [0] 1
  dot_S4000x32_S32x16_S4000x16_1_0_0_1_n_n_wf : DotDims.WF S4000x32 S32x16 S4000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S4000x16_S16x8_S4000x8_1_0_0_1_n_n_wf : DotDims.WF S4000x16 S16x8 S4000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .bf16 = 32 ∨ (Rect.block (s := S100000x16) S4000x16.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x16.size a ≤ S8x16.size a
  hwx1_5 : ∀ i : grid1.Coords, EltTy.bits .f32 = 32 ∨ (Rect.block (s := S8x16) S8x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x16.size a ≤ S8x16.size a
  hwx1_6 : ∀ i : grid1.Coords, EltTy.bits .f32 = 32 ∨ (Rect.block (s := S8x16) S8x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x8.size a ≤ S100000x8.size a
  hwx1_7 : ∀ i : grid1.Coords, EltTy.bits .bf16 = 32 ∨ (Rect.block (s := S100000x8) S4000x8.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x8.size a ≤ S100000x8.size a
  hwx1_8 : ∀ i : grid1.Coords, EltTy.bits .f32 = 32 ∨ (Rect.block (s := S100000x8) S4000x8.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x8.size a ≤ S100000x8.size a
  hwx2_0 : ∀ i : grid2.Coords, EltTy.bits .f32 = 32 ∨ (Rect.block (s := S100000x8) S4000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x8.size a ≤ S100000x8.size a
  hwx2_1 : ∀ i : grid2.Coords, EltTy.bits .f32 = 32 ∨ (Rect.block (s := S100000x8) S4000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8.size a ≤ S8.size a
  hwx2_3 : ∀ i : grid2.Coords, EltTy.bits .f32 = 32 ∨ (Rect.block (s := S8) S8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8.size a ≤ S1x8.size a
  hwx2_4 : ∀ i : grid2.Coords, EltTy.bits .f32 = 32 ∨ (Rect.block (s := S1x8) S1x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1.size a ≤ S1.size a
  hwx2_5 : ∀ i : grid2.Coords, EltTy.bits .f32 = 32 ∨ (Rect.block (s := S1) S1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S100000x1.size a
  hwx2_6 : ∀ i : grid2.Coords, EltTy.bits .f32 = 32 ∨ (Rect.block (s := S100000x1) S4000x1.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S4000x16_S16x8_S4000x8_1_0_0_1_n_n : DotDims S4000x16 S16x8 S4000x8 where
  lhsContracting := [1]
  rhsContracting := [0]
  lhsNonContracting := [0]
  rhsNonContracting := [1]
  lhsBatch := []
  rhsBatch := []
  wf := dot_S4000x16_S16x8_S4000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S8x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S8x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25_0) S4000x8.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v25_1) S4000x8.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v25_1) S4000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S4000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S1x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S4000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S32x16 : Shape := ⟨2, ![32, 16]⟩
abbrev S100000x16 : Shape := ⟨2, ![100000, 16]⟩
abbrev S1x16 : Shape := ⟨2, ![1, 16]⟩
abbrev S1600000x16 : Shape := ⟨2, ![1600000, 16]⟩
abbrev S16x8 : Shape := ⟨2, ![16, 8]⟩
abbrev S100000x8 : Shape := ⟨2, ![100000, 8]⟩
abbrev S8x1 : Shape := ⟨2, ![8, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S16x32, .f32⟩
  | .hbm, ⟨3, _⟩ => ⟨S16, .f32⟩
  | .hbm, ⟨4, _⟩ => ⟨S16x32, .f32⟩
  | .hbm, ⟨5, _⟩ => ⟨S8x16, .f32⟩
  | .hbm, ⟨6, _⟩ => ⟨S8, .f32⟩
  | .hbm, ⟨7, _⟩ => ⟨S8x16, .f32⟩
  | .hbm, ⟨8, _⟩ => ⟨S1x8, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S32x16, .f32⟩
  | .hbm, ⟨40, _⟩ => ⟨S100000x16, .f32⟩
  | .hbm, ⟨41, _⟩ => ⟨S1x16, .f32⟩
  | .hbm, ⟨42, _⟩ => ⟨S100000x16, .f32⟩
  | .hbm, ⟨43, _⟩ => ⟨S100000x16, .f32⟩
  | .hbm, ⟨44, _⟩ => ⟨S32x16, .f32⟩
  | .hbm, ⟨45, _⟩ => ⟨S100000x16, .f32⟩
  | .hbm, ⟨46, _⟩ => ⟨S100000x16, .f32⟩
  | .hbm, ⟨47, _⟩ => ⟨S_, .f32⟩
  | .hbm, ⟨48, _⟩ => ⟨S100000x16, .f32⟩
  | .hbm, ⟨49, _⟩ => ⟨S100000x16, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x16, .f32⟩
  | .hbm, ⟨59, _⟩ => ⟨S_, .f32⟩
  | .hbm, ⟨60, _⟩ => ⟨S100000x16, .f32⟩
  | .hbm, ⟨61, _⟩ => ⟨S1600000x1, .i32⟩
  | .hbm, ⟨62, _⟩ => ⟨S100000x16, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x16, .f32⟩
  | .hbm, ⟨74, _⟩ => ⟨S100000x16, .f32⟩
  | .hbm, ⟨75, _⟩ => ⟨S16x8, .f32⟩
  | .hbm, ⟨76, _⟩ => ⟨S100000x8, .f32⟩
  | .hbm, ⟨77, _⟩ => ⟨S1x8, .f32⟩
  | .hbm, ⟨78, _⟩ => ⟨S100000x8, .f32⟩
  | .hbm, ⟨79, _⟩ => ⟨S100000x8, .f32⟩
  | .hbm, ⟨80, _⟩ => ⟨S16x8, .f32⟩
  | .hbm, ⟨81, _⟩ => ⟨S100000x8, .f32⟩
  | .hbm, ⟨82, _⟩ => ⟨S100000x8, .f32⟩
  | .hbm, ⟨83, _⟩ => ⟨S8x1, .f32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  transposes_S8x16_S16x8_1_0 : S8x16.Transposes [1, 0] S16x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  transposes_S1x8_S8x1_1_0 : S1x8.Transposes [1, 0] S8x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x8_S100000x8_1_0_0_1_n_n_wf : DotDims.WF S100000x16 S16x8 S100000x8 [1] [0] [0] [1] [] []
  dot_S100000x8_S8x1_S100000x1_1_0_0_1_n_n_wf : DotDims.WF S100000x8 S8x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def dot_S100000x8_S8x1_S100000x1_1_0_0_1_n_n : DotDims S100000x8 S8x1 S100000x1 where
  lhsContracting := [1]
  rhsContracting := [0]
  lhsNonContracting := [0]
  rhsNonContracting := [1]
  lhsBatch := []
  rhsBatch := []
  wf := dot_S100000x8_S8x1_S100000x1_1_0_0_1_n_n_wf

class Facts : Prop extends Facts₀ where

variable [Facts]
-- ==== Proof.KRun.lean ====
/-
  The idealized kernel's run with its result named.

  The program is three grid launches among stretches of host operations. Its run is a chain of boundary contents:
  the launch memory, then after each host stretch the operations' results written over it, then after each launch the
  launch's arrays at what its write-backs leave. Every weakly fair execution terminates in a state whose unscoped
  buffers hold the last boundary's contents; read at the result buffer this names the result, and read at the argument
  buffers it gives the arguments as launched.
-/
import proofs.«102455_j22299470201097_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_value : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KRun

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdims.lean ====
/-
  Reusable lemmas: a row reduction of an [a, b] array kept as a column and broadcast back along the row.

  jnp's `max(s, axis=-1, keepdims=True)` and `sum(…, axis=-1, keepdims=True)` inside a kernel print as a lane reduction
  [a, b] → [a], a shape cast [a] → [a, 1], and a broadcast [a, 1] → [a, b].  Read over the extended reals at (r, j) the
  result is the fold of max (from the accumulator's value) or the sum over row r, whatever j:

      bmax s (r, j) = max_k s (r, k),      bsum s (r, j) = Σ_k s (r, k).

  The two layout steps are read by coordinates: an [a] vector cast to an [a, 1] column reads entry i at (i, 0), and an
  [a, 1] column broadcast to [a, b] reads the column's entry p at (p, c).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of an [a, b] array reduced along its rows, with the row position k put back, is (r, k). -/
theorem lift_row {a b : ℕ} (hr : (⟨2, ![a, b]⟩ : Shape).Reduces [1] ⟨1, ![a]⟩) (r : Fin a) (k : Fin b) :
    hr.lift (ix1 r) k = ix2 r k :=
  funext fun c => Fin.ext (by
    match c with
    | ⟨0, _⟩ => rfl
    | ⟨1, _⟩ => rfl)

/-- The row maximum kept as a column and broadcast back: at (r, j) the fold of max, from the accumulator's value, over
    row r. -/
theorem rowMax_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .maximumf [1] ⟨1, ![a]⟩ s acc hr hφ hacc) hsc) hb (ix2 r j)
      = (Finset.univ : Finset (Fin b)).fold max (Ideal.ofBits .f32 acc) (fun k => s (ix2 r k)) := by
  rw [broadcastTo_a1_ab_apply, shapeCast_a_a1_apply, Ideal.multiReduction_maximumf_single]
  refine congrArg (fun f => (Finset.univ : Finset (Fin b)).fold max (Ideal.ofBits .f32 acc) f) ?_
  exact funext fun k => congrArg s (lift_row hr r k)

/-- The row sum kept as a column and broadcast back: at (r, j) the sum over row r. -/
theorem rowSum_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .add [1] ⟨1, ![a]⟩ s acc hr hφ hacc) hsc) hb (ix2 r j)
      = ∑ k : Fin b, s (ix2 r k) := by
  rw [broadcastTo_a1_ab_apply, shapeCast_a_a1_apply, Ideal.multiReduction_add_single]
  exact Finset.sum_congr rfl fun k _ => congrArg s (lift_row hr r k)

end Cert.Keepdims

end
-- ==== Proof.KPay.lean ====
/-
  The three kernel bodies' stored values, read at an entry of the block, over the extended reals.

  A change of float format is the identity there, a matrix product into zeros is an inner product, a lane sum is a
  finite sum. Row r of every stored block depends only on row r of the row blocks and on the whole weight blocks:

    first kernel    (r, j) ↦ Σ_k x(r, k) · w(j, k)
    second kernel   the hidden row  h(r, j) = max (a(r, j) · d(r) + b(j) + Σ_k x(r, k) · w(j, k)) 0,
                    stored through two more products  (r, o) ↦ Σ_j h(r, j) · u(o, j)
    third kernel    r ↦ Σ_o (a(r, o) · d(r) + b(o) + p(r, o)) · f(0, o) + g(0).
-/
import proofs.«102455_j22299470201097_2_alg».proof.Proof.Gen.KernelIdeal.Skeleton
import proofs.«102455_j22299470201097_2_alg».proof.Proof.LibMatmulNN
import proofs.«102455_j22299470201097_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-- The first kernel's stored block at (r, j): row r of the feature block against row j of the weight block. -/
theorem pay0_apply (x0 : Vec Ideal S4000x32 .f32) (x1 : Vec Ideal S16x32 .f32) (r : Fin 4000) (j : Fin 16) :
    k0_pay1 (F := Ideal) x0 x1 (ix2 r j) = ∑ k : Fin 32, x0 (ix2 r k) * x1 (ix2 j k) := by
  unfold k0_pay1
  refine (Cert.MatmulNN.matmul_zero_apply _ rfl none _ _ r j).trans ?_
  refine Finset.sum_congr rfl fun k _ => ?_
  rw [transpose_ix2_apply]
  rfl

/-- The second kernel's hidden row at (r, j): the aggregated message scaled by the node's reciprocal divisor, plus the
    bias, plus the root projection, rectified. -/
theorem hidden_apply (v0 : Vec Ideal S4000x16 .f32) (v2 : Vec Ideal S4000x1 .f32) (v6 : Vec Ideal S4000x32 .f32)
    (v8 : Vec Ideal S16x32 .f32) (v10 : Vec Ideal S16 .f32) (r : Fin 4000) (j : Fin 16) :
    k1_pay1 (F := Ideal) v0 v2 v6 v8 v10 (ix2 r j)
      = max (v0 (ix2 r j) * v2 (ix2 r (0 : Fin 1)) + v10 (ix1 j) + ∑ k : Fin 32, v6 (ix2 r k) * v8 (ix2 j k)) 0 := by
  unfold k1_pay1
  simp only [truncf_apply, maximumf_apply, addf_apply, mulf_apply, broadcast_apply]
  refine congrArg₂ max (congrArg₂ (· + ·) (congrArg₂ (· + ·) (congrArg₂ (· * ·) ?_ ?_) ?_) ?_) ?_
  · rw [shapeCast_self]
  · rw [shapeCast_self]; exact Cert.Keepdims.broadcastTo_a1_ab_apply _ _ r j
  · exact (broadcastTo_1b_ab_apply _ _ r j).trans (shapeCast_a_1a_apply _ _ _ j)
  · refine (Cert.MatmulNN.matmul_zero_apply _ rfl none _ _ r j).trans ?_
    refine Finset.sum_congr rfl fun k _ => ?_
    rw [transpose_ix2_apply]
    rfl
  · exact Ideal.ofBits_zero_f32

/-- The second kernel's first stored block at (r, o): the hidden row against row o of the neighbour weights. -/
theorem pay1l_apply (v0 : Vec Ideal S4000x16 .f32) (v2 : Vec Ideal S4000x1 .f32) (v6 : Vec Ideal S4000x32 .f32)
    (v8 : Vec Ideal S16x32 .f32) (v10 : Vec Ideal S16 .f32) (v20 : Vec Ideal S8x16 .f32) (r : Fin 4000) (o : Fin 8) :
    k1_pay2 (F := Ideal) v0 v2 v6 v8 v10 v20 (ix2 r o)
      = ∑ j : Fin 16, k1_pay1 (F := Ideal) v0 v2 v6 v8 v10 (ix2 r j) * v20 (ix2 o j) := by
  unfold k1_pay2
  refine (Cert.MatmulNN.matmul_zero_apply _ rfl none _ _ r o).trans ?_
  refine Finset.sum_congr rfl fun k _ => ?_
  rw [transpose_ix2_apply]
  rfl

/-- The second kernel's second stored block at (r, o): the hidden row against row o of the root weights. -/
theorem pay1r_apply (v0 : Vec Ideal S4000x16 .f32) (v2 : Vec Ideal S4000x1 .f32) (v6 : Vec Ideal S4000x32 .f32)
    (v8 : Vec Ideal S16x32 .f32) (v10 : Vec Ideal S16 .f32) (v22 : Vec Ideal S8x16 .f32) (r : Fin 4000) (o : Fin 8) :
    k1_pay3 (F := Ideal) v0 v2 v6 v8 v10 v22 (ix2 r o)
      = ∑ j : Fin 16, k1_pay1 (F := Ideal) v0 v2 v6 v8 v10 (ix2 r j) * v22 (ix2 o j) := by
  unfold k1_pay3
  refine (Cert.MatmulNN.matmul_zero_apply _ rfl none _ _ r o).trans ?_
  refine Finset.sum_congr rfl fun k _ => ?_
  rw [transpose_ix2_apply]
  rfl

/-- The third kernel's stored block at (r, 0): the head's weighted sum over the eight output features, plus its bias. -/
theorem pay2_apply (v0 : Vec Ideal S4000x8 .f32) (v2 : Vec Ideal S4000x1 .f32) (v6 : Vec Ideal S8 .f32)
    (v10 : Vec Ideal S4000x8 .f32) (v13 : Vec Ideal S1x8 .f32) (v18 : Vec Ideal S1 .f32) (r : Fin 4000) :
    k2_pay1 (F := Ideal) v0 v2 v6 v10 v13 v18 (ix2 r (0 : Fin 1))
      = (∑ o : Fin 8, (v0 (ix2 r o) * v2 (ix2 r (0 : Fin 1)) + v6 (ix1 o) + v10 (ix2 r o)) * v13 (ix2 (0 : Fin 1) o))
        + v18 (ix1 (0 : Fin 1)) := by
  unfold k2_pay1
  simp only [addf_apply]
  refine congrArg₂ (· + ·) ?_ ?_
  · rw [Cert.Keepdims.shapeCast_a_a1_apply]
    refine (Ideal.multiReduction_add_single _ _ _ _ _ (ix1 r)).trans ?_
    refine Finset.sum_congr rfl fun (o : Fin 8) _ => ?_
    rw [show reduces_S4000x8_S4000.lift (ix1 r) o = ix2 r o from Cert.Keepdims.lift_row _ r o]
    simp only [mulf_apply, addf_apply]
    refine congrArg₂ (· * ·) (congrArg₂ (· + ·) (congrArg₂ (· + ·) (congrArg₂ (· * ·) ?_ ?_) ?_) ?_) ?_
    · rw [shapeCast_self]
    · rw [shapeCast_self]; exact Cert.Keepdims.broadcastTo_a1_ab_apply _ _ r o
    · exact (broadcastTo_1b_ab_apply _ _ r o).trans (shapeCast_a_1a_apply _ _ _ o)
    · rw [shapeCast_self]
    · exact broadcastTo_1b_ab_apply _ _ r o
  · exact (broadcastTo_1b_ab_apply _ _ r (0 : Fin 1)).trans (shapeCast_a_1a_apply _ _ _ (0 : Fin 1))

end Cert.KernelIdeal.KPay

end
-- ==== Proof.KReg0.lean ====
/-
  The first launch: every row of the features projected by the layer-one neighbour weights.

  The grid has 25 points; point t fetches rows 4000 t … 4000 t + 3999 of the feature array and the whole weight array
  and writes back the same rows of the result. Row r of the block it writes is row r of the feature block against the
  weight rows, so the result array, whatever contents V the launch finds, is the array
  (n, j) ↦ Σ_k x(n, k) · w(j, k) of the two arrays it reads.
-/
import proofs.«102455_j22299470201097_2_alg».proof.Proof.Gen.KernelIdeal.Frame
import proofs.«102455_j22299470201097_2_alg».proof.Proof.KPay
import Idealize.ShloMosaic.Lib.Pipeline.Value

set_option maxRecDepth 16384

noncomputable section

namespace Cert.KernelIdeal.KReg

open Cert.KernelIdeal Cert.KernelIdeal.Gen Cert.KernelIdeal.KPay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Every row of x against every row of w. -/
def proj {N C J : Nat} (x : (⟨2, ![N, C]⟩ : Shape).Idx → EReal) (w : (⟨2, ![J, C]⟩ : Shape).Idx → EReal) :
    (⟨2, ![N, J]⟩ : Shape).Idx → EReal := fun i =>
  ∑ k : Fin C, x (ix2 ⟨(i 0).val, idx2_lt0 i⟩ k) * w (ix2 ⟨(i 1).val, idx2_lt1 i⟩ k)

/-- The first kernel's stored block is its two loaded blocks projected. -/
theorem pay0_eq (x0 : Vec Ideal S4000x32 .f32) (x1 : Vec Ideal S16x32 .f32) : k0_pay1 (F := Ideal) x0 x1 = proj x0 x1 :=
  funext fun y => by
    obtain ⟨r, j, rfl⟩ : ∃ (r : Fin 4000) (j : Fin 16), y = ix2 r j :=
      ⟨⟨(y 0).val, idx2_lt0 y⟩, ⟨(y 1).val, idx2_lt1 y⟩, eq_ix2 y⟩
    exact pay0_apply x0 x1 r j

/-- The printed index maps over the grid: the row windows' block index is the point, every other one is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projected array. -/
theorem flushed0 (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero hz2]
  simp only [View.ld_unit_zero (S := S4000x32) hz2, View.ld_unit_zero (S := S16x32) hz2]
  obtain ⟨e0, e1, e2, e3, e4, e5⟩ := idx_facts0 t
  funext y
  show k0_pay1 (iblk0 V c 0 t) (iblk0 V c 1 t) y = proj (V c main_arg0) (V c main_arg2) (((cfg0.win 2).blk t).view.emb y)
  rw [pay0_eq]
  unfold proj
  refine Finset.sum_congr rfl fun k _ => congrArg₂ (· * ·) ?_ ?_
  · show V c main_arg0 (((cfg0.win 0).blk t).view.emb (ix2 ⟨(y 0).val, idx2_lt0 y⟩ k)) = _
    refine congrArg (V c main_arg0) (funext fun a => Fin.ext ?_)
    match a with
    | ⟨0, _⟩ =>
      show win0_0.index t (0 : Fin 2) * 4000 + 1 * (y 0).val = win0_2.index t (0 : Fin 2) * 4000 + 1 * (y 0).val
      omega
    | ⟨1, _⟩ =>
      show win0_0.index t (1 : Fin 2) * 32 + 1 * k.val = k.val
      omega
  · show V c main_arg2 (((cfg0.win 1).blk t).view.emb (ix2 ⟨(y 1).val, idx2_lt1 y⟩ k)) = _
    refine congrArg (V c main_arg2) (funext fun a => Fin.ext ?_)
    match a with
    | ⟨0, _⟩ =>
      show win0_1.index t (0 : Fin 2) * 16 + 1 * (y 1).val = win0_2.index t (1 : Fin 2) * 16 + 1 * (y 1).val
      omega
    | ⟨1, _⟩ =>
      show win0_1.index t (1 : Fin 2) * 32 + 1 * k.val = k.val
      omega

/-- An index of the result array is in point t's block iff each coordinate is in the block's range on its axis. -/
theorem mem_blk0 (t : Fin cfg0.N) (i : S100000x16.Idx) :
    i ∈ ((cfg0.win 2).blk t).view.set ↔ ∀ a : Fin 2, win0_2.index t a * S4000x16.size a ≤ (i a).val
      ∧ (i a).val < win0_2.index t a * S4000x16.size a + S4000x16.size a := by
  show i ∈ ((View.whole main_v13).slice (win0_2.rect t)).set ↔ _
  rw [View.set_slice_whole, Rect.mem_set_unit]
  exact Iff.rfl

/-- The 25 blocks of 4000 rows tile the 100000 rows: row n is in the block of point n / 4000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 25 := N_0
  have ht : (i 0).val / 4000 < grid0.N := by omega
  refine ⟨⟨(i 0).val / 4000, ht⟩, flush0_2 _, ?_⟩
  rw [mem_blk0]
  obtain ⟨e0, e1, e2, e3, e4, e5⟩ := idx_facts0 ⟨(i 0).val / 4000, ht⟩
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 16 ≤ (i 1).val
      ∧ (i 1).val < win0_2.index ⟨(i 0).val / 4000, ht⟩ (1 : Fin 2) * 16 + 16
    rw [e5]; omega

/-- The result array after the launch is the projected array of the two arrays the launch reads. -/
theorem final0 (c : Dev nD) : (dat0 V c).arrAt 2 cfg0.N = proj (V c main_arg0) (V c main_arg2) :=
  (dat0 V c).arrAt_eq_of_cover 2 _ (fun t _ => flushed0 V c t) cover0

end Cert.KernelIdeal.KReg

end
-- ==== Proof.KReg1.lean ====
/-
  The second launch: the hidden layer and its two projections.

  Point t of the 25-point grid fetches rows 4000 t … 4000 t + 3999 of the features, of the aggregated messages and of
  the reciprocal-divisor column, and the four small arrays whole; it writes back the same rows of two results. Row r of
  what it computes depends on row r of the row blocks only: the hidden row
  h(r, j) = max (msg(r, j) · d(r) + b(j) + Σ_k x(r, k) · wr(j, k)) 0, then h(r, ·) against the rows of either layer-two
  weight array. So each result array, whatever contents V the launch finds, is that function of the arrays it reads.
-/
import proofs.«102455_j22299470201097_2_alg».proof.Proof.KReg0

set_option maxRecDepth 16384

noncomputable section

namespace Cert.KernelIdeal.KReg

open Cert.KernelIdeal Cert.KernelIdeal.Gen Cert.KernelIdeal.KPay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a; rfl

/-- The hidden layer, entry by entry: the message scaled by the row's reciprocal divisor, plus the bias, plus the root
    projection, rectified. -/
def hid {N : Nat} (x : (⟨2, ![N, 32]⟩ : Shape).Idx → EReal) (msg : (⟨2, ![N, 16]⟩ : Shape).Idx → EReal)
    (d : (⟨2, ![N, 1]⟩ : Shape).Idx → EReal) (wr : (⟨2, ![16, 32]⟩ : Shape).Idx → EReal)
    (b : (⟨1, ![16]⟩ : Shape).Idx → EReal) : (⟨2, ![N, 16]⟩ : Shape).Idx → EReal := fun i =>
  max (msg (ix2 ⟨(i 0).val, idx2_lt0 i⟩ ⟨(i 1).val, idx2_lt1 i⟩) * d (ix2 ⟨(i 0).val, idx2_lt0 i⟩ (0 : Fin 1))
    + b (ix1 ⟨(i 1).val, idx2_lt1 i⟩)
    + ∑ k : Fin 32, x (ix2 ⟨(i 0).val, idx2_lt0 i⟩ k) * wr (ix2 ⟨(i 1).val, idx2_lt1 i⟩ k)) 0

/-- The second kernel's hidden value is hid of its loaded blocks. -/
theorem hidden_eq (v0 : Vec Ideal S4000x16 .f32) (v2 : Vec Ideal S4000x1 .f32) (v6 : Vec Ideal S4000x32 .f32)
    (v8 : Vec Ideal S16x32 .f32) (v10 : Vec Ideal S16 .f32) : k1_pay1 (F := Ideal) v0 v2 v6 v8 v10 = hid v6 v0 v2 v8 v10 :=
  funext fun y => by
    obtain ⟨r, j, rfl⟩ : ∃ (r : Fin 4000) (j : Fin 16), y = ix2 r j :=
      ⟨⟨(y 0).val, idx2_lt0 y⟩, ⟨(y 1).val, idx2_lt1 y⟩, eq_ix2 y⟩
    exact hidden_apply v0 v2 v6 v8 v10 r j

theorem pay1l_eq (v0 : Vec Ideal S4000x16 .f32) (v2 : Vec Ideal S4000x1 .f32) (v6 : Vec Ideal S4000x32 .f32)
    (v8 : Vec Ideal S16x32 .f32) (v10 : Vec Ideal S16 .f32) (v20 : Vec Ideal S8x16 .f32) :
    k1_pay2 (F := Ideal) v0 v2 v6 v8 v10 v20 = proj (hid v6 v0 v2 v8 v10) v20 :=
  funext fun y => by
    obtain ⟨r, o, rfl⟩ : ∃ (r : Fin 4000) (o : Fin 8), y = ix2 r o :=
      ⟨⟨(y 0).val, idx2_lt0 y⟩, ⟨(y 1).val, idx2_lt1 y⟩, eq_ix2 y⟩
    rw [pay1l_apply, hidden_eq]
    rfl

theorem pay1r_eq (v0 : Vec Ideal S4000x16 .f32) (v2 : Vec Ideal S4000x1 .f32) (v6 : Vec Ideal S4000x32 .f32)
    (v8 : Vec Ideal S16x32 .f32) (v10 : Vec Ideal S16 .f32) (v22 : Vec Ideal S8x16 .f32) :
    k1_pay3 (F := Ideal) v0 v2 v6 v8 v10 v22 = proj (hid v6 v0 v2 v8 v10) v22 :=
  funext fun y => by
    obtain ⟨r, o, rfl⟩ : ∃ (r : Fin 4000) (o : Fin 8), y = ix2 r o :=
      ⟨⟨(y 0).val, idx2_lt0 y⟩, ⟨(y 1).val, idx2_lt1 y⟩, eq_ix2 y⟩
    rw [pay1r_apply, hidden_eq]
    rfl

/-- The printed index maps over the grid: the row windows' block index is the point, every other one is zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row y0 of the hidden layer of point t's blocks is row 4000 t + y0 of the hidden layer of the arrays. -/
theorem hid_blk (c : Dev nD) (t : Fin cfg1.N) (y0 : Fin 4000) (j : Fin 16) (n : Fin 100000) (hn : n.val = t.val * 4000 + y0.val) :
    hid (iblk1 V c 0 t) (iblk1 V c 1 t) (iblk1 V c 2 t) (iblk1 V c 3 t) (iblk1 V c 4 t) (ix2 y0 j)
      = hid (V c main_arg0) (V c main_v24) (V c main_v12) (V c main_arg4) (V c main_arg3) (ix2 n j) := by
  obtain ⟨e00, e01, e10, e11, e20, e21, e30, e31, e40, e50, e51, e60, e61, e70, e71, e80, e81⟩ := idx_facts1 t
  unfold hid
  refine congrArg₂ max (congrArg₂ (· + ·) (congrArg₂ (· + ·) (congrArg₂ (· * ·) ?_ ?_) ?_) (Finset.sum_congr rfl fun k _ => congrArg₂ (· * ·) ?_ ?_)) rfl
  · show V c main_v24 (((cfg1.win 1).blk t).view.emb (ix2 y0 j)) = V c main_v24 (ix2 n j)
    refine congrArg (V c main_v24) (funext fun a => Fin.ext ?_)
    match a with
    | ⟨0, _⟩ => show win1_1.index t (0 : Fin 2) * 4000 + 1 * y0.val = n.val; omega
    | ⟨1, _⟩ => show win1_1.index t (1 : Fin 2) * 16 + 1 * j.val = j.val; omega
  · show V c main_v12 (((cfg1.win 2).blk t).view.emb (ix2 y0 (0 : Fin 1))) = V c main_v12 (ix2 n (0 : Fin 1))
    refine congrArg (V c main_v12) (funext fun a => Fin.ext ?_)
    match a with
    | ⟨0, _⟩ => show win1_2.index t (0 : Fin 2) * 4000 + 1 * y0.val = n.val; omega
    | ⟨1, _⟩ => show win1_2.index t (1 : Fin 2) * 1 + 1 * 0 = 0; omega
  · show V c main_arg3 (((cfg1.win 4).blk t).view.emb (ix1 j)) = V c main_arg3 (ix1 j)
    refine congrArg (V c main_arg3) (funext fun a => Fin.ext ?_)
    match a with
    | ⟨0, _⟩ => show win1_4.index t (0 : Fin 1) * 16 + 1 * j.val = j.val; omega
  · show V c main_arg0 (((cfg1.win 0).blk t).view.emb (ix2 y0 k)) = V c main_arg0 (ix2 n k)
    refine congrArg (V c main_arg0) (funext fun a => Fin.ext ?_)
    match a with
    | ⟨0, _⟩ => show win1_0.index t (0 : Fin 2) * 4000 + 1 * y0.val = n.val; omega
    | ⟨1, _⟩ => show win1_0.index t (1 : Fin 2) * 32 + 1 * k.val = k.val; omega
  · show V c main_arg4 (((cfg1.win 3).blk t).view.emb (ix2 j k)) = V c main_arg4 (ix2 j k)
    refine congrArg (V c main_arg4) (funext fun a => Fin.ext ?_)
    match a with
    | ⟨0, _⟩ => show win1_3.index t (0 : Fin 2) * 16 + 1 * j.val = j.val; omega
    | ⟨1, _⟩ => show win1_3.index t (1 : Fin 2) * 32 + 1 * k.val = k.val; omega

/-- What point t writes back to the first result is block t of the hidden layer projected by the neighbour weights. -/
theorem flushed1_7 (c : Dev nD) (t : Fin cfg1.N) :
    (dat1 V c).flushed 7 t = ((cfg1.win 7).blk t).view.read (Elt Ideal)
      (proj (hid (V c main_arg0) (V c main_v24) (V c main_v12) (V c main_arg4) (V c main_arg3)) (V c main_arg5)) := by
  show (cfg1.win 7).cut (grid1.coords t) ((dat1 V c).after 7 t) = _
  rw [after1_7]
  unfold out1_7
  rw [View.canon_unit_zero hz2]
  simp only [View.ld_unit_zero (S := S4000x32) hz2, View.ld_unit_zero (S := S4000x16) hz2, View.ld_unit_zero (S := S4000x1) hz2,
    View.ld_unit_zero (S := S16x32) hz2, View.ld_unit_zero (S := S16) hz1, View.ld_unit_zero (S := S8x16) hz2]
  obtain ⟨e00, e01, e10, e11, e20, e21, e30, e31, e40, e50, e51, e60, e61, e70, e71, e80, e81⟩ := idx_facts1 t
  funext y
  show k1_pay2 (iblk1 V c 1 t) (iblk1 V c 2 t) (iblk1 V c 0 t) (iblk1 V c 3 t) (iblk1 V c 4 t) (iblk1 V c 5 t) y
    = proj (hid (V c main_arg0) (V c main_v24) (V c main_v12) (V c main_arg4) (V c main_arg3)) (V c main_arg5)
        (((cfg1.win 7).blk t).view.emb y)
  rw [pay1l_eq]
  unfold proj
  refine Finset.sum_congr rfl fun j _ => congrArg₂ (· * ·) ?_ ?_
  · refine hid_blk V c t ⟨(y 0).val, idx2_lt0 y⟩ j _ ?_
    show win1_7.index t (0 : Fin 2) * 4000 + 1 * (y 0).val = t.val * 4000 + (y 0).val
    omega
  · show V c main_arg5 (((cfg1.win 5).blk t).view.emb (ix2 ⟨(y 1).val, idx2_lt1 y⟩ j)) = _
    refine congrArg (V c main_arg5) (funext fun a => Fin.ext ?_)
    match a with
    | ⟨0, _⟩ =>
      show win1_5.index t (0 : Fin 2) * 8 + 1 * (y 1).val = win1_7.index t (1 : Fin 2) * 8 + 1 * (y 1).val
      omega
    | ⟨1, _⟩ => show win1_5.index t (1 : Fin 2) * 16 + 1 * j.val = j.val; omega

/-- What point t writes back to the second result is block t of the hidden layer projected by the root weights. -/
theorem flushed1_8 (c : Dev nD) (t : Fin cfg1.N) :
    (dat1 V c).flushed 8 t = ((cfg1.win 8).blk t).view.read (Elt Ideal)
      (proj (hid (V c main_arg0) (V c main_v24) (V c main_v12) (V c main_arg4) (V c main_arg3)) (V c main_arg7)) := by
  show (cfg1.win 8).cut (grid1.coords t) ((dat1 V c).after 8 t) = _
  rw [after1_8]
  unfold out1_8
  rw [View.canon_unit_zero hz2]
  simp only [View.ld_unit_zero (S := S4000x32) hz2, View.ld_unit_zero (S := S4000x16) hz2, View.ld_unit_zero (S := S4000x1) hz2,
    View.ld_unit_zero (S := S16x32) hz2, View.ld_unit_zero (S := S16) hz1, View.ld_unit_zero (S := S8x16) hz2]
  obtain ⟨e00, e01, e10, e11, e20, e21, e30, e31, e40, e50, e51, e60, e61, e70, e71, e80, e81⟩ := idx_facts1 t
  funext y
  show k1_pay3 (iblk1 V c 1 t) (iblk1 V c 2 t) (iblk1 V c 0 t) (iblk1 V c 3 t) (iblk1 V c 4 t) (iblk1 V c 6 t) y
    = proj (hid (V c main_arg0) (V c main_v24) (V c main_v12) (V c main_arg4) (V c main_arg3)) (V c main_arg7)
        (((cfg1.win 8).blk t).view.emb y)
  rw [pay1r_eq]
  unfold proj
  refine Finset.sum_congr rfl fun j _ => congrArg₂ (· * ·) ?_ ?_
  · refine hid_blk V c t ⟨(y 0).val, idx2_lt0 y⟩ j _ ?_
    show win1_8.index t (0 : Fin 2) * 4000 + 1 * (y 0).val = t.val * 4000 + (y 0).val
    omega
  · show V c main_arg7 (((cfg1.win 6).blk t).view.emb (ix2 ⟨(y 1).val, idx2_lt1 y⟩ j)) = _
    refine congrArg (V c main_arg7) (funext fun a => Fin.ext ?_)
    match a with
    | ⟨0, _⟩ =>
      show win1_6.index t (0 : Fin 2) * 8 + 1 * (y 1).val = win1_8.index t (1 : Fin 2) * 8 + 1 * (y 1).val
      omega
    | ⟨1, _⟩ => show win1_6.index t (1 : Fin 2) * 16 + 1 * j.val = j.val; omega

theorem mem_blk1_7 (t : Fin cfg1.N) (i : S100000x8.Idx) :
    i ∈ ((cfg1.win 7).blk t).view.set ↔ ∀ a : Fin 2, win1_7.index t a * S4000x8.size a ≤ (i a).val
      ∧ (i a).val < win1_7.index t a * S4000x8.size a + S4000x8.size a := by
  show i ∈ ((View.whole main_v25_0).slice (win1_7.rect t)).set ↔ _
  rw [View.set_slice_whole, Rect.mem_set_unit]
  exact Iff.rfl

theorem mem_blk1_8 (t : Fin cfg1.N) (i : S100000x8.Idx) :
    i ∈ ((cfg1.win 8).blk t).view.set ↔ ∀ a : Fin 2, win1_8.index t a * S4000x8.size a ≤ (i a).val
      ∧ (i a).val < win1_8.index t a * S4000x8.size a + S4000x8.size a := by
  show i ∈ ((View.whole main_v25_1).slice (win1_8.rect t)).set ↔ _
  rw [View.set_slice_whole, Rect.mem_set_unit]
  exact Iff.rfl

/-- The 25 blocks of 4000 rows tile the 100000 rows of either result. -/
theorem cover1_7 (i : S100000x8.Idx) :
    ∃ t : Fin cfg1.N, (cfg1.win 7).flush t = true ∧ i ∈ ((cfg1.win 7).blk t).view.set := by
  have hi0 : (i 0).val < 100000 := (i 0).isLt
  have hi1 : (i 1).val < 8 := (i 1).isLt
  have hN : grid1.N = 25 := N_1
  have ht : (i 0).val / 4000 < grid1.N := by omega
  refine ⟨⟨(i 0).val / 4000, ht⟩, flush1_7 _, ?_⟩
  rw [mem_blk1_7]
  obtain ⟨e00, e01, e10, e11, e20, e21, e30, e31, e40, e50, e51, e60, e61, e70, e71, e80, e81⟩ := idx_facts1 ⟨(i 0).val / 4000, ht⟩
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    rw [e70]; show (i 0).val / 4000 * 4000 ≤ (i 0).val ∧ (i 0).val < (i 0).val / 4000 * 4000 + 4000; omega
  | ⟨1, _⟩ =>
    show win1_7.index ⟨(i 0).val / 4000, ht⟩ (1 : Fin 2) * 8 ≤ (i 1).val
      ∧ (i 1).val < win1_7.index ⟨(i 0).val / 4000, ht⟩ (1 : Fin 2) * 8 + 8
    rw [e71]; omega

theorem cover1_8 (i : S100000x8.Idx) :
    ∃ t : Fin cfg1.N, (cfg1.win 8).flush t = true ∧ i ∈ ((cfg1.win 8).blk t).view.set := by
  have hi0 : (i 0).val < 100000 := (i 0).isLt
  have hi1 : (i 1).val < 8 := (i 1).isLt
  have hN : grid1.N = 25 := N_1
  have ht : (i 0).val / 4000 < grid1.N := by omega
  refine ⟨⟨(i 0).val / 4000, ht⟩, flush1_8 _, ?_⟩
  rw [mem_blk1_8]
  obtain ⟨e00, e01, e10, e11, e20, e21, e30, e31, e40, e50, e51, e60, e61, e70, e71, e80, e81⟩ := idx_facts1 ⟨(i 0).val / 4000, ht⟩
  intro a
  match a with
  | ⟨0, _⟩ =>
    show win1_8.index ⟨(i 0).val / 4000, ht⟩ (0 : Fin 2) * 4000 ≤ (i 0).val
      ∧ (i 0).val < win1_8.index ⟨(i 0).val / 4000, ht⟩ (0 : Fin 2) * 4000 + 4000
    rw [e80]; show (i 0).val / 4000 * 4000 ≤ (i 0).val ∧ (i 0).val < (i 0).val / 4000 * 4000 + 4000; omega
  | ⟨1, _⟩ =>
    show win1_8.index ⟨(i 0).val / 4000, ht⟩ (1 : Fin 2) * 8 ≤ (i 1).val
      ∧ (i 1).val < win1_8.index ⟨(i 0).val / 4000, ht⟩ (1 : Fin 2) * 8 + 8
    rw [e81]; omega

/-- The two result arrays after the launch, as functions of the arrays the launch reads. -/
theorem final1_7 (c : Dev nD) : (dat1 V c).arrAt 7 cfg1.N
    = proj (hid (V c main_arg0) (V c main_v24) (V c main_v12) (V c main_arg4) (V c main_arg3)) (V c main_arg5) :=
  (dat1 V c).arrAt_eq_of_cover 7 _ (fun t _ => flushed1_7 V c t) cover1_7

theorem final1_8 (c : Dev nD) : (dat1 V c).arrAt 8 cfg1.N
    = proj (hid (V c main_arg0) (V c main_v24) (V c main_v12) (V c main_arg4) (V c main_arg3)) (V c main_arg7) :=
  (dat1 V c).arrAt_eq_of_cover 8 _ (fun t _ => flushed1_8 V c t) cover1_8

end Cert.KernelIdeal.KReg

end
-- ==== Proof.KReg2.lean ====
/-
  The third launch: the output layer's tail and the linear head.

  Point t of the 25-point grid fetches rows 4000 t … 4000 t + 3999 of the root projection, of the aggregated messages and
  of the reciprocal-divisor column, and the bias, the head's weight row and the head's bias whole; it writes back the
  same rows of the one-column result. Row r of what it computes,
  Σ_o (msg(r, o) · d(r) + b(o) + p(r, o)) · f(0, o) + g(0), depends on row r of the row blocks only, so the result array,
  whatever contents V the launch finds, is that function of the arrays it reads.
-/
import proofs.«102455_j22299470201097_2_alg».proof.Proof.KReg0

set_option maxRecDepth 16384

noncomputable section

namespace Cert.KernelIdeal.KReg

open Cert.KernelIdeal Cert.KernelIdeal.Gen Cert.KernelIdeal.KPay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1' : (![0] : Fin 1 → Nat) = fun _ => 0 := funext fun a => by fin_cases a; rfl

/-- The head, row by row: the scaled message plus the bias plus the root projection, weighted by the head's row and
    summed over the eight output features, plus the head's bias. -/
def head {N : Nat} (p : (⟨2, ![N, 8]⟩ : Shape).Idx → EReal) (msg : (⟨2, ![N, 8]⟩ : Shape).Idx → EReal)
    (d : (⟨2, ![N, 1]⟩ : Shape).Idx → EReal) (b : (⟨1, ![8]⟩ : Shape).Idx → EReal)
    (f : (⟨2, ![1, 8]⟩ : Shape).Idx → EReal) (g : (⟨1, ![1]⟩ : Shape).Idx → EReal) :
    (⟨2, ![N, 1]⟩ : Shape).Idx → EReal := fun i =>
  (∑ o : Fin 8, (msg (ix2 ⟨(i 0).val, idx2_lt0 i⟩ o) * d (ix2 ⟨(i 0).val, idx2_lt0 i⟩ (0 : Fin 1)) + b (ix1 o)
      + p (ix2 ⟨(i 0).val, idx2_lt0 i⟩ o)) * f (ix2 (0 : Fin 1) o))
    + g (ix1 (0 : Fin 1))

/-- The third kernel's stored block is head of its loaded blocks. -/
theorem pay2_eq (v0 : Vec Ideal S4000x8 .f32) (v2 : Vec Ideal S4000x1 .f32) (v6 : Vec Ideal S8 .f32)
    (v10 : Vec Ideal S4000x8 .f32) (v13 : Vec Ideal S1x8 .f32) (v18 : Vec Ideal S1 .f32) :
    k2_pay1 (F := Ideal) v0 v2 v6 v10 v13 v18 = head v10 v0 v2 v6 v13 v18 :=
  funext fun y => by
    obtain ⟨r, rfl⟩ : ∃ r : Fin 4000, y = ix2 r (0 : Fin 1) :=
      ⟨⟨(y 0).val, idx2_lt0 y⟩, (eq_ix2 y).trans (congrArg (ix2 _) (Fin.ext (by
        have h : (y 1).val < 1 := idx2_lt1 y
        show (y 1).val = 0
        omega)))⟩
    exact pay2_apply v0 v2 v6 v10 v13 v18 r

/-- The printed index maps over the grid: the row windows' block index is the point, every other one is zero. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- What point t writes back is block t of the head of the arrays. -/
theorem flushed2 (c : Dev nD) (t : Fin cfg2.N) :
    (dat2 V c).flushed 6 t = ((cfg2.win 6).blk t).view.read (Elt Ideal)
      (head (V c main_v25_1) (V c main_v36) (V c main_v12) (V c main_arg6) (V c main_arg8) (V c main_arg9)) := by
  show (cfg2.win 6).cut (grid2.coords t) ((dat2 V c).after 6 t) = _
  rw [after2_6]
  unfold out2_6
  rw [View.canon_unit_zero hz2]
  simp only [View.ld_unit_zero (S := S4000x8) hz2, View.ld_unit_zero (S := S4000x1) hz2, View.ld_unit_zero (S := S8) hz1',
    View.ld_unit_zero (S := S1x8) hz2, View.ld_unit_zero (S := S1) hz1']
  obtain ⟨e00, e01, e10, e11, e20, e21, e30, e40, e41, e50, e60, e61⟩ := idx_facts2 t
  funext y
  show k2_pay1 (iblk2 V c 1 t) (iblk2 V c 2 t) (iblk2 V c 3 t) (iblk2 V c 0 t) (iblk2 V c 4 t) (iblk2 V c 5 t) y
    = head (V c main_v25_1) (V c main_v36) (V c main_v12) (V c main_arg6) (V c main_arg8) (V c main_arg9)
        (((cfg2.win 6).blk t).view.emb y)
  rw [pay2_eq]
  unfold head
  refine congrArg₂ (· + ·) (Finset.sum_congr rfl fun o _ => congrArg₂ (· * ·)
    (congrArg₂ (· + ·) (congrArg₂ (· + ·) (congrArg₂ (· * ·) ?_ ?_) ?_) ?_) ?_) ?_
  · show V c main_v36 (((cfg2.win 1).blk t).view.emb (ix2 ⟨(y 0).val, idx2_lt0 y⟩ o)) = _
    refine congrArg (V c main_v36) (funext fun a => Fin.ext ?_)
    match a with
    | ⟨0, _⟩ =>
      show win2_1.index t (0 : Fin 2) * 4000 + 1 * (y 0).val = win2_6.index t (0 : Fin 2) * 4000 + 1 * (y 0).val
      omega
    | ⟨1, _⟩ => show win2_1.index t (1 : Fin 2) * 8 + 1 * o.val = o.val; omega
  · show V c main_v12 (((cfg2.win 2).blk t).view.emb (ix2 ⟨(y 0).val, idx2_lt0 y⟩ (0 : Fin 1))) = _
    refine congrArg (V c main_v12) (funext fun a => Fin.ext ?_)
    match a with
    | ⟨0, _⟩ =>
      show win2_2.index t (0 : Fin 2) * 4000 + 1 * (y 0).val = win2_6.index t (0 : Fin 2) * 4000 + 1 * (y 0).val
      omega
    | ⟨1, _⟩ => show win2_2.index t (1 : Fin 2) * 1 + 1 * 0 = 0; omega
  · show V c main_arg6 (((cfg2.win 3).blk t).view.emb (ix1 o)) = V c main_arg6 (ix1 o)
    refine congrArg (V c main_arg6) (funext fun a => Fin.ext ?_)
    match a with
    | ⟨0, _⟩ => show win2_3.index t (0 : Fin 1) * 8 + 1 * o.val = o.val; omega
  · show V c main_v25_1 (((cfg2.win 0).blk t).view.emb (ix2 ⟨(y 0).val, idx2_lt0 y⟩ o)) = _
    refine congrArg (V c main_v25_1) (funext fun a => Fin.ext ?_)
    match a with
    | ⟨0, _⟩ =>
      show win2_0.index t (0 : Fin 2) * 4000 + 1 * (y 0).val = win2_6.index t (0 : Fin 2) * 4000 + 1 * (y 0).val
      omega
    | ⟨1, _⟩ => show win2_0.index t (1 : Fin 2) * 8 + 1 * o.val = o.val; omega
  · show V c main_arg8 (((cfg2.win 4).blk t).view.emb (ix2 (0 : Fin 1) o)) = V c main_arg8 (ix2 (0 : Fin 1) o)
    refine congrArg (V c main_arg8) (funext fun a => Fin.ext ?_)
    match a with
    | ⟨0, _⟩ => show win2_4.index t (0 : Fin 2) * 1 + 1 * 0 = 0; omega
    | ⟨1, _⟩ => show win2_4.index t (1 : Fin 2) * 8 + 1 * o.val = o.val; omega
  · show V c main_arg9 (((cfg2.win 5).blk t).view.emb (ix1 (0 : Fin 1))) = V c main_arg9 (ix1 (0 : Fin 1))
    refine congrArg (V c main_arg9) (funext fun a => Fin.ext ?_)
    match a with
    | ⟨0, _⟩ => show win2_5.index t (0 : Fin 1) * 1 + 1 * 0 = 0; omega

theorem mem_blk2 (t : Fin cfg2.N) (i : S100000x1.Idx) :
    i ∈ ((cfg2.win 6).blk t).view.set ↔ ∀ a : Fin 2, win2_6.index t a * S4000x1.size a ≤ (i a).val
      ∧ (i a).val < win2_6.index t a * S4000x1.size a + S4000x1.size a := by
  show i ∈ ((View.whole main_v37).slice (win2_6.rect t)).set ↔ _
  rw [View.set_slice_whole, Rect.mem_set_unit]
  exact Iff.rfl

/-- The 25 blocks of 4000 rows tile the 100000 rows of the result. -/
theorem cover2 (i : S100000x1.Idx) :
    ∃ t : Fin cfg2.N, (cfg2.win 6).flush t = true ∧ i ∈ ((cfg2.win 6).blk t).view.set := by
  have hi0 : (i 0).val < 100000 := (i 0).isLt
  have hi1 : (i 1).val < 1 := (i 1).isLt
  have hN : grid2.N = 25 := N_2
  have ht : (i 0).val / 4000 < grid2.N := by omega
  refine ⟨⟨(i 0).val / 4000, ht⟩, flush2_6 _, ?_⟩
  rw [mem_blk2]
  obtain ⟨e00, e01, e10, e11, e20, e21, e30, e40, e41, e50, e60, e61⟩ := idx_facts2 ⟨(i 0).val / 4000, ht⟩
  intro a
  match a with
  | ⟨0, _⟩ =>
    show win2_6.index ⟨(i 0).val / 4000, ht⟩ (0 : Fin 2) * 4000 ≤ (i 0).val
      ∧ (i 0).val < win2_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win2_6.index ⟨(i 0).val / 4000, ht⟩ (1 : Fin 2) * 1 ≤ (i 1).val
      ∧ (i 1).val < win2_6.index ⟨(i 0).val / 4000, ht⟩ (1 : Fin 2) * 1 + 1
    rw [e61]; omega

/-- The result array after the launch is the head of the arrays the launch reads. -/
theorem final2 (c : Dev nD) : (dat2 V c).arrAt 6 cfg2.N
    = head (V c main_v25_1) (V c main_v36) (V c main_v12) (V c main_arg6) (V c main_arg8) (V c main_arg9) :=
  (dat2 V c).arrAt_eq_of_cover 6 _ (fun t _ => flushed2 V c t) cover2

end Cert.KernelIdeal.KReg

end
-- ==== Proof.LibSegmentSum.lean ====
/-
  A segment sum read at an index.

  jax's segment_sum of rows (a scatter-add of an array of E rows of width C into an array of N rows, row e going to the
  row that the e-th entry of an integer index column names) is, on the extended reals, the exact sum: entry (n, c) of
  the result is entry (n, c) of the array scattered into, plus the sum over the rows e whose index, read as a signed
  integer, is n, of entry (e, c) of the updates. A row whose index is negative or at least N contributes nothing.
  The lemmas below read the scatter's dimension numbers (window axis 1 of the updates onto axis 1 of the operand,
  axis 0 of the operand inserted and addressed by the one component of the index vector) down to that statement.
-/
import Idealize.ShloMosaic.PureOps.Ideal
import Idealize.ShloMosaic.Lib.ValueIdx

noncomputable section

namespace Cert.Lib.SegmentSum

open Idealize.ShloMosaic Idealize.ShloMosaic.ValueIdx

/-- The dimension numbers of a row scatter: operand [N, C], scatter indices [E, 1], updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update (e, c') starts at the e-th index read signed. -/
theorem start_row (e : Fin E) (c' : Fin C) (idx : IVec ⟨2, ![E, 1]⟩ w) :
    (rowDims N E C wf).start (ix2 e c') idx 0 = (idx (ix2 e (0 : Fin 1))).toInt := by
  unfold ScatterDims.start
  rw [dif_pos (show (0 : Fin 2) ∈ (rowDims N E C wf).scatterDimsToOperandDims from List.mem_singleton.mpr rfl)]
  congr 2
  funext b; refine Fin.ext ?_
  match b with
  | ⟨0, _⟩ => rfl
  | ⟨1, _⟩ => rfl

/-- On the column axis the window starts at zero. -/
theorem start_col (e : Fin E) (c' : Fin C) (idx : IVec ⟨2, ![E, 1]⟩ w) :
    (rowDims N E C wf).start (ix2 e c') idx 1 = 0 := by
  unfold ScatterDims.start
  rw [dif_neg (show ¬ (1 : Fin 2) ∈ (rowDims N E C wf).scatterDimsToOperandDims by
    show (1 : Fin 2) ∉ ([0] : List (Fin 2)); decide)]

/-- The row axis is inserted: no window coordinate there. -/
theorem window_row (e : Fin E) (c' : Fin C) : (rowDims N E C wf).window (ix2 e c') 0 = 0 := by
  unfold ScatterDims.window
  rw [dif_neg (show ¬ (0 : Fin 2) ∈ (rowDims N E C wf).sKept by
    show (0 : Fin 2) ∉ (List.finRange 2).filter (fun a => a ∉ ([0] : List (Fin 2))); decide)]

/-- The column axis carries the update's column. -/
theorem window_col (e : Fin E) (c' : Fin C) : (rowDims N E C wf).window (ix2 e c') 1 = c'.val := by
  unfold ScatterDims.window
  rw [dif_pos (show (1 : Fin 2) ∈ (rowDims N E C wf).sKept by
    show (1 : Fin 2) ∈ (List.finRange 2).filter (fun a => a ∉ ([0] : List (Fin 2))); decide)]
  rfl

/-- WHERE AN UPDATE LANDS: update (e, c') lands on entry (n, c) exactly when the e-th index, read signed, is n
    and c' is c. -/
theorem resultIdx?_eq_some_iff (e : Fin E) (c' : Fin C) (idx : IVec ⟨2, ![E, 1]⟩ w) (n : Fin N) (c : Fin C) :
    (rowDims N E C wf).resultIdx? (ix2 e c') idx = some (ix2 n c)
      ↔ (idx (ix2 e (0 : Fin 1))).toInt = (n.val : Int) ∧ c' = c := by
  unfold ScatterDims.resultIdx?
  have hc := c'.isLt
  have hnlt := n.isLt
  constructor
  · intro h
    split at h
    · rename_i hall
      have h' := Option.some.inj h
      have h0 : ((rowDims N E C wf).start (ix2 e c') idx 0 + ((rowDims N E C wf).window (ix2 e c') 0 : Int)).toNat = n.val :=
        congrArg (fun f => (f 0).val) h'
      have h1 : ((rowDims N E C wf).start (ix2 e c') idx 1 + ((rowDims N E C wf).window (ix2 e c') 1 : Int)).toNat = c.val :=
        congrArg (fun f => (f 1).val) h'
      have hr : 0 ≤ (rowDims N E C wf).start (ix2 e c') idx 0 + ((rowDims N E C wf).window (ix2 e c') 0 : Int) := (hall 0).1
      rw [start_row, window_row] at h0 hr
      rw [start_col, window_col] at h1
      exact ⟨by omega, Fin.ext (by omega)⟩
    · exact absurd h (by simp)
  · rintro ⟨hn, rfl⟩
    have h0 : 0 ≤ (rowDims N E C wf).start (ix2 e c') idx 0 + ((rowDims N E C wf).window (ix2 e c') 0 : Int) ∧
        (rowDims N E C wf).start (ix2 e c') idx 0 + ((rowDims N E C wf).window (ix2 e c') 0 : Int) < (N : Int) := by
      rw [start_row, window_row, hn]; constructor <;> omega
    have h1 : 0 ≤ (rowDims N E C wf).start (ix2 e c') idx 1 + ((rowDims N E C wf).window (ix2 e c') 1 : Int) ∧
        (rowDims N E C wf).start (ix2 e c') idx 1 + ((rowDims N E C wf).window (ix2 e c') 1 : Int) < (C : Int) := by
      rw [start_col, window_col]; constructor <;> omega
    have hall : ∀ a, 0 ≤ (rowDims N E C wf).start (ix2 e c') idx a + (rowDims N E C wf).window (ix2 e c') a ∧
        (rowDims N E C wf).start (ix2 e c') idx a + (rowDims N E C wf).window (ix2 e c') a < (⟨2, ![N, C]⟩ : Shape).size a :=
      fun a => match a with
        | ⟨0, _⟩ => h0
        | ⟨1, _⟩ => h1
    rw [dif_pos hall]
    congr 1
    funext a; refine Fin.ext ?_
    match a with
    | ⟨0, _⟩ =>
      show ((rowDims N E C wf).start (ix2 e c') idx 0 + ((rowDims N E C wf).window (ix2 e c') 0 : Int)).toNat = n.val
      rw [start_row, window_row, hn]; omega
    | ⟨1, _⟩ =>
      show ((rowDims N E C wf).start (ix2 e c') idx 1 + ((rowDims N E C wf).window (ix2 e c') 1 : Int)).toNat = c'.val
      rw [start_col, window_col]; omega

/-- THE SEGMENT SUM READ AT (n, c): the entry scattered into, plus the updates' column c summed over the rows whose
    index is n. -/
theorem scatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_bij' (fun j _ => (⟨(j 0).val, idx2_lt0 j⟩ : Fin E)) (fun e _ => ix2 e c) ?_ ?_ ?_ ?_ ?_
  · intro j hj
    obtain ⟨e, c', rfl⟩ : ∃ (e : Fin E) (c' : Fin C), j = ix2 e c' := ⟨⟨(j 0).val, idx2_lt0 j⟩, ⟨(j 1).val, idx2_lt1 j⟩, eq_ix2 j⟩
    exact Finset.mem_filter.mpr ⟨Finset.mem_univ _, ((resultIdx?_eq_some_iff wf e c' idx n c).mp (Finset.mem_filter.mp hj).2).1⟩
  · intro e he
    exact Finset.mem_filter.mpr ⟨Finset.mem_univ _,
      (resultIdx?_eq_some_iff wf e c idx n c).mpr ⟨(Finset.mem_filter.mp he).2, rfl⟩⟩
  · intro j hj
    obtain ⟨e, c', rfl⟩ : ∃ (e : Fin E) (c' : Fin C), j = ix2 e c' := ⟨⟨(j 0).val, idx2_lt0 j⟩, ⟨(j 1).val, idx2_lt1 j⟩, eq_ix2 j⟩
    obtain rfl := ((resultIdx?_eq_some_iff wf e c' idx n c).mp (Finset.mem_filter.mp hj).2).2
    rfl
  · intro e _
    rfl
  · intro j hj
    obtain ⟨e, c', rfl⟩ : ∃ (e : Fin E) (c' : Fin C), j = ix2 e c' := ⟨⟨(j 0).val, idx2_lt0 j⟩, ⟨(j 1).val, idx2_lt1 j⟩, eq_ix2 j⟩
    obtain rfl := ((resultIdx?_eq_some_iff wf e c' idx n c).mp (Finset.mem_filter.mp hj).2).2
    rfl

/-! ## The rank-1 form: a segment sum of numbers

The scatter-add of a vector of E numbers into a vector of N numbers, entry e going to the place the e-th index names
(jax's segment_sum of a vector: node degrees, group sizes). The updates have no window axis. -/

/-- The dimension numbers of a scatter of numbers: operand [N], scatter indices [E, 1], updates [E]. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec

variable {N E w : Nat} (wf1 : ScatterDims.WF ⟨1, ![N]⟩ ⟨2, ![E, 1]⟩ ⟨1, ![E]⟩ [] [0] [0] 1)

/-- The window of update e starts at the e-th index read signed. -/
theorem vstart (e : Fin E) (idx : IVec ⟨2, ![E, 1]⟩ w) :
    (vecDims N E wf1).start (ix1 e) idx 0 = (idx (ix2 e (0 : Fin 1))).toInt := by
  unfold ScatterDims.start
  rw [dif_pos (show (0 : Fin 1) ∈ (vecDims N E wf1).scatterDimsToOperandDims from List.mem_singleton.mpr rfl)]
  congr 2
  funext b; refine Fin.ext ?_
  match b with
  | ⟨0, _⟩ => rfl
  | ⟨1, _⟩ => rfl

/-- The one operand axis is inserted: no window coordinate. -/
theorem vwindow (e : Fin E) : (vecDims N E wf1).window (ix1 e) 0 = 0 := by
  unfold ScatterDims.window
  rw [dif_neg (show ¬ (0 : Fin 1) ∈ (vecDims N E wf1).sKept by
    show (0 : Fin 1) ∉ (List.finRange 1).filter (fun a => a ∉ ([0] : List (Fin 1))); decide)]

/-- Update e lands on entry n exactly when the e-th index, read signed, is n. -/
theorem vresultIdx?_eq_some_iff (e : Fin E) (idx : IVec ⟨2, ![E, 1]⟩ w) (n : Fin N) :
    (vecDims N E wf1).resultIdx? (ix1 e) idx = some (ix1 n) ↔ (idx (ix2 e (0 : Fin 1))).toInt = (n.val : Int) := by
  unfold ScatterDims.resultIdx?
  have hnlt := n.isLt
  constructor
  · intro h
    split at h
    · rename_i hall
      have h' := Option.some.inj h
      have h0 : ((vecDims N E wf1).start (ix1 e) idx 0 + ((vecDims N E wf1).window (ix1 e) 0 : Int)).toNat = n.val :=
        congrArg (fun f => (f 0).val) h'
      have hr : 0 ≤ (vecDims N E wf1).start (ix1 e) idx 0 + ((vecDims N E wf1).window (ix1 e) 0 : Int) := (hall 0).1
      rw [vstart, vwindow] at h0 hr
      omega
    · exact absurd h (by simp)
  · intro hn
    have h0 : 0 ≤ (vecDims N E wf1).start (ix1 e) idx 0 + ((vecDims N E wf1).window (ix1 e) 0 : Int) ∧
        (vecDims N E wf1).start (ix1 e) idx 0 + ((vecDims N E wf1).window (ix1 e) 0 : Int) < (N : Int) := by
      rw [vstart, vwindow, hn]; constructor <;> omega
    have hall : ∀ a, 0 ≤ (vecDims N E wf1).start (ix1 e) idx a + (vecDims N E wf1).window (ix1 e) a ∧
        (vecDims N E wf1).start (ix1 e) idx a + (vecDims N E wf1).window (ix1 e) a < (⟨1, ![N]⟩ : Shape).size a :=
      fun a => match a with
        | ⟨0, _⟩ => h0
    rw [dif_pos hall]
    congr 1
    funext a; refine Fin.ext ?_
    match a with
    | ⟨0, _⟩ =>
      show ((vecDims N E wf1).start (ix1 e) idx 0 + ((vecDims N E wf1).window (ix1 e) 0 : Int)).toNat = n.val
      rw [vstart, vwindow, hn]; omega

/-- THE SEGMENT SUM OF NUMBERS READ AT n: the entry scattered into, plus the updates summed over the places whose
    index is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf1) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_bij' (fun j _ => (⟨(j 0).val, (j 0).isLt⟩ : Fin E)) (fun e _ => ix1 e) ?_ ?_ ?_ ?_ ?_
  · intro j hj
    obtain ⟨e, rfl⟩ : ∃ e : Fin E, j = ix1 e := ⟨⟨(j 0).val, (j 0).isLt⟩, eq_ix1 j⟩
    exact Finset.mem_filter.mpr ⟨Finset.mem_univ _, (vresultIdx?_eq_some_iff wf1 e idx n).mp (Finset.mem_filter.mp hj).2⟩
  · intro e he
    exact Finset.mem_filter.mpr ⟨Finset.mem_univ _, (vresultIdx?_eq_some_iff wf1 e idx n).mpr (Finset.mem_filter.mp he).2⟩
  · intro j _
    obtain ⟨e, rfl⟩ : ∃ e : Fin E, j = ix1 e := ⟨⟨(j 0).val, (j 0).isLt⟩, eq_ix1 j⟩
    rfl
  · intro e _
    rfl
  · intro j _
    obtain ⟨e, rfl⟩ : ∃ e : Fin E, j = ix1 e := ⟨⟨(j 0).val, (j 0).isLt⟩, eq_ix1 j⟩
    rfl

end Vec

end Cert.Lib.SegmentSum

end
-- ==== Proof.LibGatherRows.lean ====
/-
  A gather of rows read at an index.

  Indexing an array of N rows of width C with an integer column of E row numbers (jax's x[idx], a stablehlo.gather
  along axis 0 with whole-row slices) gives an array of E rows: row e is row idx[e] of x, the row number read as a
  signed integer and clamped into [0, N - 1], as StableHLO clamps every start index so that the slice fits. The lemma
  reads the gather's dimension numbers (offset axis 1, axis 0 collapsed and addressed by the one component of the
  index vector, slices of one row) down to that statement.
-/
import Idealize.ShloMosaic.PureOps.ShapeOps
import Idealize.ShloMosaic.Lib.ValueIdx

noncomputable section

namespace Cert.Lib.GatherRows

open Idealize.ShloMosaic Idealize.ShloMosaic.ValueIdx

/-- The dimension numbers of a gather of rows: operand [N, C], start indices [E, 1], result [E, C]. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable {α : Type} {N E C w : Nat}
  (wf : GatherDims.WF ⟨2, ![N, C]⟩ ⟨2, ![E, 1]⟩ ⟨2, ![E, C]⟩ [1] [0] [] [0] [] 1 ![1, C])

/-- THE GATHER READ AT (e, c): the operand at the row the e-th index names (read signed, clamped into [0, N - 1])
    and at column c. -/
theorem gather_rows_apply (hN : 0 < N) (x : (⟨2, ![N, C]⟩ : Shape).Idx → α) (idx : IVec ⟨2, ![E, 1]⟩ w)
    (e : Fin E) (c : Fin C) :
    Host.gather (rowsDims N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show ¬ (1 : Fin 2) ∈ (rowsDims N E C wf).startIndexMap by
        show (1 : Fin 2) ∉ ([0] : List (Fin 2)); decide)]
    have ho : (rowsDims N E C wf).offCoord (ix2 e c) 1 = c.val := by
      unfold GatherDims.offCoord
      rw [dif_pos (show (1 : Fin 2) ∈ (rowsDims N E C wf).sKept by
        show (1 : Fin 2) ∈ (List.finRange 2).filter (fun a => a ∉ (([0] : List (Fin 2)) ++ [])); decide)]
      rfl
    rw [hs, ho]; omega

end Cert.Lib.GatherRows

end
-- ==== Proof.LibSegMean.lean ====
/-
  A segment mean read at an entry, and a gather of single numbers read at an entry.

  The mean over the edges of a node is written by array programs as two segment sums and a quotient: the rows named by
  one integer column are gathered, the gathered rows are added into a zero array at the rows a second integer column
  names, a column of ones is added into a zero column the same way, and the first result is divided, entry by entry, by
  the larger of the second and one (so a node with no edge gets zero, not a division by zero). On the extended reals
  every one of these steps is exact, so entry (n, c) of the result is

      (Σ_{e : s(e) = n} x[g(e), c]) / max (Σ_{e : s(e) = n} 1) 1,

  where s(e) is the e-th scatter index read as a signed integer and g(e) the e-th gather index read signed and clamped
  into the operand's rows. The numerator and the divisor are read separately below, so that they can be joined to
  whatever broadcast a particular program uses to spread the divisor along the columns; a joined form takes the
  divisor's entry as a hypothesis.

  The last lemma reads a gather whose start indices are pairs (row, column) into an array with one column, every
  result being one number: the column component is clamped to the only column there is, so the result at e is the
  operand at the clamped row and column zero.
-/
import proofs.«102455_j22299470201097_2_alg».proof.Proof.LibSegmentSum
import proofs.«102455_j22299470201097_2_alg».proof.Proof.LibGatherRows

noncomputable section

namespace Cert.Lib.SegMean

open Idealize.ShloMosaic Idealize.ShloMosaic.ValueIdx Cert.Lib.SegmentSum Cert.Lib.GatherRows

section Mean

variable {M N E C : Nat} {φ : FTy}

/-- The edges a segment sum adds into row n: those whose scatter index, read signed, is n. -/
abbrev seg (sidx : IVec ⟨2, ![E, 1]⟩ 32) (n : Fin N) : Finset (Fin E) :=
  Finset.univ.filter fun e : Fin E => (sidx (ix2 e (0 : Fin 1))).toInt = (n.val : Int)

/-- A SEGMENT SUM INTO ZEROS READ AT (n, c): the updates' column c summed over the edges of row n. -/
theorem seg_sum_apply (wfS : ScatterDims.WF ⟨2, ![N, C]⟩ ⟨2, ![E, 1]⟩ ⟨2, ![E, C]⟩ [1] [0] [0] 1)
    (DS : ScatterDims ⟨2, ![N, C]⟩ ⟨2, ![E, 1]⟩ ⟨2, ![E, C]⟩) (hDS : DS = rowDims N E C wfS)
    (z : FVec Ideal ⟨2, ![N, C]⟩ φ) (hz : ∀ i, z i = 0) (sidx : IVec ⟨2, ![E, 1]⟩ 32)
    (upd : FVec Ideal ⟨2, ![E, C]⟩ φ) (n : Fin N) (c : Fin C) :
    Host.scatterAdd DS z sidx upd (ix2 n c) = ∑ e ∈ seg sidx n, upd (ix2 e c) := by
  subst hDS
  show Ideal.hostScatterAdd (rowDims N E C wfS) z sidx upd (ix2 n c) = _
  rw [scatterAdd_apply, hz, zero_add]

/-- THE NUMERATOR: the segment sum into zeros of gathered rows, read at (n, c), is the sum over the edges of row n
    of the operand at the row the edge's gather index names (read signed, clamped into the operand's rows) and
    column c. -/
theorem seg_sum_gather_apply
    (wfG : GatherDims.WF ⟨2, ![M, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (DG : GatherDims ⟨2, ![M, C]⟩ ⟨2, ![E, 1]⟩ ⟨2, ![E, C]⟩) (hDG : DG = rowsDims M E C wfG)
    (DS : ScatterDims ⟨2, ![N, C]⟩ ⟨2, ![E, 1]⟩ ⟨2, ![E, C]⟩) (hDS : DS = rowDims N E C wfS)
    (hM : 0 < M) (z : FVec Ideal ⟨2, ![N, C]⟩ φ) (hz : ∀ i, z i = 0)
    (x : FVec Ideal ⟨2, ![M, C]⟩ φ) (gidx sidx : IVec ⟨2, ![E, 1]⟩ 32) (n : Fin N) (c : Fin C) :
    Host.scatterAdd DS z sidx (Host.gather DG x gidx) (ix2 n c)
      = ∑ e ∈ seg sidx n, x (ix2 ⟨min (gidx (ix2 e (0 : Fin 1))).toInt.toNat (M - 1), by omega⟩ c) := by
  rw [seg_sum_apply wfS DS hDS z hz]
  subst hDG
  exact Finset.sum_congr rfl fun e _ => gather_rows_apply wfG hM x gidx e c

/-- THE DIVISOR: the segment sum into a zero column of a column of ones, compared with one, read at (n, 0), is the
    larger of the number of edges of row n and one. -/
theorem seg_count_apply (wfS1 : ScatterDims.WF ⟨2, ![N, 1]⟩ ⟨2, ![E, 1]⟩ ⟨2, ![E, 1]⟩ [1] [0] [0] 1)
    (DS1 : ScatterDims ⟨2, ![N, 1]⟩ ⟨2, ![E, 1]⟩ ⟨2, ![E, 1]⟩) (hDS1 : DS1 = rowDims N E 1 wfS1)
    (z1 : FVec Ideal ⟨2, ![N, 1]⟩ φ) (hz1 : ∀ i, z1 i = 0) (o : FVec Ideal ⟨2, ![E, 1]⟩ φ) (ho : ∀ i, o i = 1)
    (o1 : FVec Ideal ⟨2, ![N, 1]⟩ φ) (ho1 : ∀ i, o1 i = 1) (sidx : IVec ⟨2, ![E, 1]⟩ 32) (n : Fin N) :
    maximumf (Host.scatterAdd DS1 z1 sidx o) o1 (ix2 n (0 : Fin 1)) = max (∑ _e ∈ seg sidx n, (1 : EReal)) 1 := by
  show max (Host.scatterAdd DS1 z1 sidx o (ix2 n (0 : Fin 1))) (o1 (ix2 n (0 : Fin 1))) = _
  rw [seg_sum_apply wfS1 DS1 hDS1 z1 hz1, ho1]
  congr 1
  exact Finset.sum_congr rfl fun e _ => ho _

/-- THE SEGMENT MEAN READ AT (n, c). The divisor array is any array whose entry (n, c) is the divisor column's entry
    (n, 0) (a broadcast along the columns; the hypothesis is that program's own fact about its broadcast). -/
theorem seg_mean_apply
    (wfG : GatherDims.WF ⟨2, ![M, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (wfS1 : ScatterDims.WF ⟨2, ![N, 1]⟩ ⟨2, ![E, 1]⟩ ⟨2, ![E, 1]⟩ [1] [0] [0] 1)
    (DG : GatherDims ⟨2, ![M, C]⟩ ⟨2, ![E, 1]⟩ ⟨2, ![E, C]⟩) (hDG : DG = rowsDims M E C wfG)
    (DS : ScatterDims ⟨2, ![N, C]⟩ ⟨2, ![E, 1]⟩ ⟨2, ![E, C]⟩) (hDS : DS = rowDims N E C wfS)
    (DS1 : ScatterDims ⟨2, ![N, 1]⟩ ⟨2, ![E, 1]⟩ ⟨2, ![E, 1]⟩) (hDS1 : DS1 = rowDims N E 1 wfS1)
    (hM : 0 < M) (z : FVec Ideal ⟨2, ![N, C]⟩ φ) (hz : ∀ i, z i = 0)
    (z1 : FVec Ideal ⟨2, ![N, 1]⟩ φ) (hz1 : ∀ i, z1 i = 0) (o : FVec Ideal ⟨2, ![E, 1]⟩ φ) (ho : ∀ i, o i = 1)
    (o1 : FVec Ideal ⟨2, ![N, 1]⟩ φ) (ho1 : ∀ i, o1 i = 1)
    (x : FVec Ideal ⟨2, ![M, C]⟩ φ) (gidx sidx sidx1 : IVec ⟨2, ![E, 1]⟩ 32) (hs : sidx1 = sidx)
    (den : FVec Ideal ⟨2, ![N, C]⟩ φ) (n : Fin N) (c : Fin C)
    (hden : den (ix2 n c) = maximumf (Host.scatterAdd DS1 z1 sidx1 o) o1 (ix2 n (0 : Fin 1))) :
    Host.divf (Host.scatterAdd DS z sidx (Host.gather DG x gidx)) den (ix2 n c)
      = Ideal.div (∑ e ∈ seg sidx n, x (ix2 ⟨min (gidx (ix2 e (0 : Fin 1))).toInt.toNat (M - 1), by omega⟩ c))
          (max (∑ _e ∈ seg sidx n, (1 : EReal)) 1) := by
  subst hs
  show Ideal.div (Host.scatterAdd DS z sidx1 (Host.gather DG x gidx) (ix2 n c)) (den (ix2 n c)) = _
  rw [hden, seg_count_apply wfS1 DS1 hDS1 z1 hz1 o ho o1 ho1, seg_sum_gather_apply wfG wfS DG hDG DS hDS hM z hz]

end Mean

/-! ## A gather of single numbers by (row, column) pairs from an array with one column -/

section Pair

variable {α : Type} {N E w : Nat}

/-- The dimension numbers: operand [N, 1], start indices [E, 2] (a row and a column each), result [E]; both operand
    axes are collapsed, slices hold one number. -/
abbrev pairDims (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

variable (wf : GatherDims.WF ⟨2, ![N, 1]⟩ ⟨2, ![E, 2]⟩ ⟨1, ![E]⟩ [] [0, 1] [] [0, 1] [] 1 ![1, 1])

/-- THE GATHER READ AT e: the operand at the row the pair's first component names (read signed, clamped into
    [0, N - 1]) and at column zero, whatever the pair's second component is. -/
theorem gather_pair_apply (hN : 0 < N) (x : (⟨2, ![N, 1]⟩ : Shape).Idx → α) (idx : IVec ⟨2, ![E, 2]⟩ w) (e : Fin E) :
    Host.gather (pairDims N E wf) x idx (ix1 e)
      = x (ix2 ⟨min (idx (ix2 e (0 : Fin 2))).toInt.toNat (N - 1), by omega⟩ (0 : Fin 1)) := by
  unfold Host.gather
  congr 1
  funext a
  refine Fin.ext ?_
  match a with
  | ⟨0, _⟩ =>
    show (pairDims N E wf).start (ix1 e) idx 0 + (pairDims N E wf).batchCoord (ix1 e) 0
      + (pairDims N E wf).offCoord (ix1 e) 0 = _
    rw [GatherDims.batchCoord_eq_zero _ _ _ List.not_mem_nil,
      GatherDims.offCoord_eq_zero _ _ _ (fun h => ((GatherDims.mem_sKept _ _).mp h).1
        (show (0 : Fin 2) ∈ ([0, 1] : List (Fin 2)) by decide))]
    simp only [Nat.add_zero]
    unfold GatherDims.start
    rw [dif_pos (show (0 : Fin 2) ∈ (pairDims N E wf).startIndexMap by
      show (0 : Fin 2) ∈ ([0, 1] : List (Fin 2)); decide)]
    have hsi : (pairDims N E wf).siIdx (ix1 e) ⟨List.idxOf (0 : Fin 2) (pairDims N E wf).startIndexMap,
        List.idxOf_lt_length_iff.2 (show (0 : Fin 2) ∈ ([0, 1] : List (Fin 2)) by decide)⟩ = ix2 e (0 : Fin 2) := by
      funext b; refine Fin.ext ?_
      match b with
      | ⟨0, _⟩ => rfl
      | ⟨1, _⟩ => rfl
    rw [hsi]
    rfl
  | ⟨1, _⟩ =>
    show (pairDims N E wf).start (ix1 e) idx 1 + (pairDims N E wf).batchCoord (ix1 e) 1
      + (pairDims N E wf).offCoord (ix1 e) 1 = 0
    rw [GatherDims.batchCoord_eq_zero _ _ _ List.not_mem_nil,
      GatherDims.offCoord_eq_zero _ _ _ (fun h => ((GatherDims.mem_sKept _ _).mp h).1
        (show (1 : Fin 2) ∈ ([0, 1] : List (Fin 2)) by decide))]
    have hle : (pairDims N E wf).start (ix1 e) idx 1 ≤ 1 - 1 := (pairDims N E wf).start_le (ix1 e) idx 1
    omega

end Pair

end Cert.Lib.SegMean

end
-- ==== Proof.Spec.lean ====
/-
  The two arrangements of one graph-convolution layer, as plain functions of the node index.

  A node n has an edge set seg n (the edges whose target column names n) and every edge e a source node gat e (the
  source column read signed and clamped into the node range). With c n the larger of the number of edges of n and
  one, a layer with neighbour weights Wl, root weights Wr and bias b sends a feature table X to

      (mean over the edges of n of X (gat e)) · Wlᵀ + b + X n · Wrᵀ .

  One program projects every row with Wl first, sums the projected rows over the edges and multiplies by 1 / c n
  (layerK); the other sums the rows, divides by c n and projects afterwards (layerR). Both are written here entry by
  entry on the extended reals, over the literal node and edge counts.
-/
import proofs.«102455_j22299470201097_2_alg».proof.Proof.LibSegMean

noncomputable section

namespace Cert.Spec

open Idealize.ShloMosaic Idealize.ShloMosaic.ValueIdx Cert.Lib.SegMean

/-- The number of nodes and of edges. -/
abbrev NN : Nat := 100000
abbrev EE : Nat := 1600000
/-- An integer column with one entry per edge. -/
abbrev ECol := IVec (⟨2, ![EE, 1]⟩ : Shape) 32

/-- The source node of edge e: the e-th entry of the column, read signed and clamped into the node range. -/
def gat (gidx : ECol) (e : Fin EE) : Fin NN :=
  ⟨min (gidx (ix2 e (0 : Fin 1))).toInt.toNat (100000 - 1), by show min _ (100000 - 1) < 100000; omega⟩

/-- The edges of node n: those whose entry in the column, read signed, is n. -/
abbrev edges (sidx : ECol) (n : Fin NN) : Finset (Fin EE) := seg (N := NN) (E := EE) sidx n

/-- The divisor of node n: the larger of its number of edges and one. -/
def cnt (sidx : ECol) (n : Fin NN) : EReal := max (∑ _e ∈ edges sidx n, (1 : EReal)) 1

variable {K J : Nat}

/-- Project, then aggregate, then scale by the reciprocal of the divisor. -/
def layerK (sidx gidx : ECol) (X : Fin NN → Fin K → EReal) (Wl Wr : Fin J → Fin K → EReal) (b : Fin J → EReal)
    (n : Fin NN) (j : Fin J) : EReal :=
  (∑ e ∈ edges sidx n, ∑ k, X (gat gidx e) k * Wl j k) * Ideal.div 1 (cnt sidx n) + b j + ∑ k, X n k * Wr j k

/-- Aggregate, divide by the divisor, then project. -/
def layerR (sidx gidx : ECol) (X : Fin NN → Fin K → EReal) (Wl Wr : Fin J → Fin K → EReal) (b : Fin J → EReal)
    (n : Fin NN) (j : Fin J) : EReal :=
  (∑ k, Ideal.div (∑ e ∈ edges sidx n, X (gat gidx e) k) (cnt sidx n) * Wl j k) + b j + ∑ k, X n k * Wr j k

/-- The rectifier, entry by entry. -/
def relu (X : Fin NN → Fin J → EReal) (n : Fin NN) (j : Fin J) : EReal := max (X n j) 0

end Cert.Spec

end
-- ==== Proof.KHost.lean ====
/-
  The host operations around the three grid launches, as functions of the buffers they read.

  Before the first launch the program splits the edge array into its two rows (the source row and the target row of
  every edge, each reshaped to a vector) and computes, for every node, the reciprocal of the larger of its number of
  incoming edges and one: a scatter-add of ones at the target column into zeros, a maximum with one, and one divided
  by that. Before the second and the third launch it aggregates a table of projected rows over the edges: the rows
  named by the source column (a negative entry wrapped once by the number of nodes) are gathered, widened, and
  scatter-added into zeros at the target column. The definitions below are these terms, operation by operation; the
  theorems say that each stretch of host operations leaves exactly these terms in the buffers it writes, and leaves
  the buffers it does not write as they were.
-/
import proofs.«102455_j22299470201097_2_alg».proof.Proof.Gen.KernelIdeal.Launch
import proofs.«102455_j22299470201097_2_alg».proof.Proof.Spec
import proofs.«102455_j22299470201097_2_alg».proof.Proof.LibSegMean
import Idealize.ShloMosaic.Lib.StableHlo.Run

noncomputable section

namespace Cert.KernelIdeal.KHost

open Cert.KernelIdeal Cert.KernelIdeal.Gen Idealize.ShloMosaic Idealize.ShloMosaic.TcCoe Idealize.SL.Sem
  Idealize.ShloMosaic.StableHlo

variable {F : FTy → Type} [FloatOps F]

/-! ## The terms -/

/-- Row 0 of the edge array as a vector: the source node of every edge. -/
def srcVec (ei : IVec S2x1600000 32) : IVec S1600000 32 :=
  shapeCast S1600000 (extractStridedSlice S1x1600000 ![0, 0] ei slices_S2x1600000_S1x1600000_0_0)
    shapeCasts_S1x1600000_S1600000

/-- Row 1 of the edge array as a vector: the target node of every edge. -/
def dstVec (ei : IVec S2x1600000 32) : IVec S1600000 32 :=
  shapeCast S1600000 (extractStridedSlice S1x1600000 ![1, 0] ei slices_S2x1600000_S1x1600000_1_0)
    shapeCasts_S1x1600000_S1600000

/-- The gather column of a source vector: a negative entry has the number of nodes added once, then the vector is
    spread to a column. -/
def srcCol' (v1 : IVec S1600000 32) : IVec S1600000x1 32 :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)

/-- The scatter column of a target vector: the vector spread to a column. -/
def dstCol' (v3 : IVec S1600000 32) : IVec S1600000x1 32 :=
  broadcastInDim S1600000x1 ![0] bcast_S1600000_S1600000x1_0 v3

/-- The gather column and the scatter column of the edge array. -/
def srcCol (ei : IVec S2x1600000 32) : IVec S1600000x1 32 := srcCol' (srcVec ei)
def dstCol (ei : IVec S2x1600000 32) : IVec S1600000x1 32 := dstCol' (dstVec ei)

/-- One over the larger of the in-degree and one, for every node, as a column: ones scatter-added into zeros at the
    target column, the maximum with one, one divided by it. -/
def invDeg' (v3 : IVec S1600000 32) : FVec F S100000x1 .f32 :=
  broadcastInDim S100000x1 ![0] bcast_S100000_S100000x1_0
    (Host.divf (broadcastInDim S100000 ![] bcast_S_S100000 (constant (F := F) S_ .f32 0x3F800000#32))
      (maximumf
        (Host.scatterAdd scatter_S100000_S1600000x1_S1600000_n_0_0_1
          (broadcastInDim S100000 ![] bcast_S_S100000 (constant (F := F) S_ .f32 0x00000000#32))
          (dstCol' v3)
          (broadcastInDim S1600000 ![] bcast_S_S1600000 (constant (F := F) S_ .f32 0x3F800000#32)))
        (broadcastInDim S100000 ![] bcast_S_S100000 (constant (F := F) S_ .f32 0x3F800000#32))))
def invDeg (ei : IVec S2x1600000 32) : FVec F S100000x1 .f32 := invDeg' (F := F) (dstVec ei)

/-- The sum over the edges of a 16-column table: its rows gathered at the source column, widened, and scatter-added
    into zeros at the target column. -/
def segSum16' (v1 v3 : IVec S1600000 32) (y : FVec F S100000x16 .bf16) : FVec F S100000x16 .f32 :=
  Host.scatterAdd scatter_S100000x16_S1600000x1_S1600000x16_1_0_0_1
    (broadcastInDim S100000x16 ![] bcast_S_S100000x16 (constant (F := F) S_ .f32 0x00000000#32))
    (dstCol' v3)
    (extf .f32 (Host.gather gather_S100000x16_S1600000x1_S1600000x16_1_0_n_n_0_1_116 y (srcCol' v1)) bitsLt_bf16_f32)
def segSum16 (ei : IVec S2x1600000 32) (y : FVec F S100000x16 .bf16) : FVec F S100000x16 .f32 :=
  segSum16' (srcVec ei) (dstVec ei) y

/-- The same for an 8-column table. -/
def segSum8' (v1 v3 : IVec S1600000 32) (y : FVec F S100000x8 .bf16) : FVec F S100000x8 .f32 :=
  Host.scatterAdd scatter_S100000x8_S1600000x1_S1600000x8_1_0_0_1
    (broadcastInDim S100000x8 ![] bcast_S_S100000x8 (constant (F := F) S_ .f32 0x00000000#32))
    (dstCol' v3)
    (extf .f32 (Host.gather gather_S100000x8_S1600000x1_S1600000x8_1_0_n_n_0_1_18 y (srcCol' v1)) bitsLt_bf16_f32)
def segSum8 (ei : IVec S2x1600000 32) (y : FVec F S100000x8 .bf16) : FVec F S100000x8 .f32 :=
  segSum8' (srcVec ei) (dstVec ei) y

/-! ## The first stretch -/

variable (W : Valuation τ sig (Elt F))

theorem ops0_v1 :
    (StableHlo.after hostOps0 W (Proc.devRef .tc main_v1) : IVec S1600000 32) = srcVec (W (Proc.devRef .tc main_arg1)) := by
  dsimp only [hostOps0]; after_results; rfl

theorem ops0_v3 :
    (StableHlo.after hostOps0 W (Proc.devRef .tc main_v3) : IVec S1600000 32) = dstVec (W (Proc.devRef .tc main_arg1)) := by
  dsimp only [hostOps0]; after_results; rfl

theorem ops0_v12 :
    (StableHlo.after hostOps0 W (Proc.devRef .tc main_v12) : FVec F S100000x1 .f32)
      = invDeg (F := F) (W (Proc.devRef .tc main_arg1)) := by
  dsimp only [hostOps0]; after_results; rfl

/-- The buffers the first stretch does not write keep their contents. -/
theorem ops0_arg0 : StableHlo.after hostOps0 W (Proc.devRef .tc main_arg0) = W (Proc.devRef .tc main_arg0) := by
  dsimp only [hostOps0]; after_results
theorem ops0_arg2 : StableHlo.after hostOps0 W (Proc.devRef .tc main_arg2) = W (Proc.devRef .tc main_arg2) := by
  dsimp only [hostOps0]; after_results

/-! ## The second stretch -/

theorem ops1_v24 :
    (StableHlo.after hostOps1 W (Proc.devRef .tc main_v24) : FVec F S100000x16 .f32)
      = segSum16' (F := F) (W (Proc.devRef .tc main_v1)) (W (Proc.devRef .tc main_v3)) (W (Proc.devRef .tc main_v13)) := by
  dsimp only [hostOps1]; after_results; rfl

theorem ops1_arg0 : StableHlo.after hostOps1 W (Proc.devRef .tc main_arg0) = W (Proc.devRef .tc main_arg0) := by
  dsimp only [hostOps1]; after_results
theorem ops1_arg3 : StableHlo.after hostOps1 W (Proc.devRef .tc main_arg3) = W (Proc.devRef .tc main_arg3) := by
  dsimp only [hostOps1]; after_results
theorem ops1_arg4 : StableHlo.after hostOps1 W (Proc.devRef .tc main_arg4) = W (Proc.devRef .tc main_arg4) := by
  dsimp only [hostOps1]; after_results
theorem ops1_arg5 : StableHlo.after hostOps1 W (Proc.devRef .tc main_arg5) = W (Proc.devRef .tc main_arg5) := by
  dsimp only [hostOps1]; after_results
theorem ops1_arg7 : StableHlo.after hostOps1 W (Proc.devRef .tc main_arg7) = W (Proc.devRef .tc main_arg7) := by
  dsimp only [hostOps1]; after_results
theorem ops1_v12 : StableHlo.after hostOps1 W (Proc.devRef .tc main_v12) = W (Proc.devRef .tc main_v12) := by
  dsimp only [hostOps1]; after_results
theorem ops1_v1 : StableHlo.after hostOps1 W (Proc.devRef .tc main_v1) = W (Proc.devRef .tc main_v1) := by
  dsimp only [hostOps1]; after_results
theorem ops1_v3 : StableHlo.after hostOps1 W (Proc.devRef .tc main_v3) = W (Proc.devRef .tc main_v3) := by
  dsimp only [hostOps1]; after_results

/-! ## The third stretch -/

theorem ops2_v36 :
    (StableHlo.after hostOps2 W (Proc.devRef .tc main_v36) : FVec F S100000x8 .f32)
      = segSum8' (F := F) (W (Proc.devRef .tc main_v1)) (W (Proc.devRef .tc main_v3)) (W (Proc.devRef .tc main_v25_0)) := by
  dsimp only [hostOps2]; after_results; rfl

theorem ops2_arg6 : StableHlo.after hostOps2 W (Proc.devRef .tc main_arg6) = W (Proc.devRef .tc main_arg6) := by
  dsimp only [hostOps2]; after_results
theorem ops2_arg8 : StableHlo.after hostOps2 W (Proc.devRef .tc main_arg8) = W (Proc.devRef .tc main_arg8) := by
  dsimp only [hostOps2]; after_results
theorem ops2_arg9 : StableHlo.after hostOps2 W (Proc.devRef .tc main_arg9) = W (Proc.devRef .tc main_arg9) := by
  dsimp only [hostOps2]; after_results
theorem ops2_v12 : StableHlo.after hostOps2 W (Proc.devRef .tc main_v12) = W (Proc.devRef .tc main_v12) := by
  dsimp only [hostOps2]; after_results
theorem ops2_v25_1 : StableHlo.after hostOps2 W (Proc.devRef .tc main_v25_1) = W (Proc.devRef .tc main_v25_1) := by
  dsimp only [hostOps2]; after_results

end Cert.KernelIdeal.KHost

end
-- ==== Proof.KChain.lean ====
/-
  The idealized kernel's result as one function of its argument arrays.

  The run passes through six boundaries: after the first host stretch, after the first launch, and so on. At each
  boundary every buffer the later steps read is named: an argument array is still what was launched (no step writes
  one), the edge vectors and the reciprocal-divisor column are the first stretch's terms of the edge array, each
  launch's result is the function of the arrays it reads that its blocks were shown to tile, and each aggregated message
  is the stretch's gather and scatter-add of the previous launch's result. Composing them, the result buffer ends at
  the head of the hidden layer's two projections, aggregated and scaled, of the launched arguments.
-/
import proofs.«102455_j22299470201097_2_alg».proof.Proof.KRun
import proofs.«102455_j22299470201097_2_alg».proof.Proof.KReg1
import proofs.«102455_j22299470201097_2_alg».proof.Proof.KReg2
import proofs.«102455_j22299470201097_2_alg».proof.Proof.KHost

set_option maxRecDepth 16384

noncomputable section

namespace Cert.KernelIdeal.KChain

open Cert.KernelIdeal Cert.KernelIdeal.Gen Cert.KernelIdeal.KReg Cert.KernelIdeal.KHost
open Idealize.ShloMosaic Idealize.ShloMosaic.TcCoe Idealize.ShloMosaic.ValueIdx Idealize.SL.Sem Idealize.ShloMosaic.StableHlo
open Idealize.ShloMosaic.Pipeline (Dat Cfg Window)

/-! ## Buffers a host stretch does not write -/

section Stretch
variable (W : Valuation τ sig (Elt Ideal))
theorem ops0_arg3 : StableHlo.after hostOps0 W (Proc.devRef .tc main_arg3) = W (Proc.devRef .tc main_arg3) := by
  dsimp only [hostOps0]; after_results
theorem ops0_arg4 : StableHlo.after hostOps0 W (Proc.devRef .tc main_arg4) = W (Proc.devRef .tc main_arg4) := by
  dsimp only [hostOps0]; after_results
theorem ops0_arg5 : StableHlo.after hostOps0 W (Proc.devRef .tc main_arg5) = W (Proc.devRef .tc main_arg5) := by
  dsimp only [hostOps0]; after_results
theorem ops0_arg6 : StableHlo.after hostOps0 W (Proc.devRef .tc main_arg6) = W (Proc.devRef .tc main_arg6) := by
  dsimp only [hostOps0]; after_results
theorem ops0_arg7 : StableHlo.after hostOps0 W (Proc.devRef .tc main_arg7) = W (Proc.devRef .tc main_arg7) := by
  dsimp only [hostOps0]; after_results
theorem ops0_arg8 : StableHlo.after hostOps0 W (Proc.devRef .tc main_arg8) = W (Proc.devRef .tc main_arg8) := by
  dsimp only [hostOps0]; after_results
theorem ops0_arg9 : StableHlo.after hostOps0 W (Proc.devRef .tc main_arg9) = W (Proc.devRef .tc main_arg9) := by
  dsimp only [hostOps0]; after_results
theorem ops1_arg6 : StableHlo.after hostOps1 W (Proc.devRef .tc main_arg6) = W (Proc.devRef .tc main_arg6) := by
  dsimp only [hostOps1]; after_results
theorem ops1_arg8 : StableHlo.after hostOps1 W (Proc.devRef .tc main_arg8) = W (Proc.devRef .tc main_arg8) := by
  dsimp only [hostOps1]; after_results
theorem ops1_arg9 : StableHlo.after hostOps1 W (Proc.devRef .tc main_arg9) = W (Proc.devRef .tc main_arg9) := by
  dsimp only [hostOps1]; after_results
end Stretch

/-! ## The launches' results from named inputs -/

section Named
variable (V : (c : Dev nD) → (b : Ref sig .tc) → Buf (Elt Ideal) ((c : Thread nD τ).loc b)) (c : Dev nD)

theorem final0_of (x : S100000x32.Idx → EReal) (w : S16x32.Idx → EReal) (hx : V c main_arg0 = x) (hw : V c main_arg2 = w) :
    (dat0 V c).arrAt 2 cfg0.N = proj x w := by
  subst hx; subst hw; exact final0 V c

theorem final1_7_of (x : S100000x32.Idx → EReal) (msg : S100000x16.Idx → EReal) (d : S100000x1.Idx → EReal)
    (wr : S16x32.Idx → EReal) (b : S16.Idx → EReal) (wl : S8x16.Idx → EReal)
    (hx : V c main_arg0 = x) (hmsg : V c main_v24 = msg) (hd : V c main_v12 = d) (hwr : V c main_arg4 = wr)
    (hb : V c main_arg3 = b) (hwl : V c main_arg5 = wl) :
    (dat1 V c).arrAt 7 cfg1.N = proj (hid x msg d wr b) wl := by
  subst hx; subst hmsg; subst hd; subst hwr; subst hb; subst hwl; exact final1_7 V c

theorem final1_8_of (x : S100000x32.Idx → EReal) (msg : S100000x16.Idx → EReal) (d : S100000x1.Idx → EReal)
    (wr : S16x32.Idx → EReal) (b : S16.Idx → EReal) (wl : S8x16.Idx → EReal)
    (hx : V c main_arg0 = x) (hmsg : V c main_v24 = msg) (hd : V c main_v12 = d) (hwr : V c main_arg4 = wr)
    (hb : V c main_arg3 = b) (hwl : V c main_arg7 = wl) :
    (dat1 V c).arrAt 8 cfg1.N = proj (hid x msg d wr b) wl := by
  subst hx; subst hmsg; subst hd; subst hwr; subst hb; subst hwl; exact final1_8 V c

theorem final2_of (p msg : S100000x8.Idx → EReal) (d : S100000x1.Idx → EReal) (b : S8.Idx → EReal)
    (f : S1x8.Idx → EReal) (g : S1.Idx → EReal)
    (hp : V c main_v25_1 = p) (hmsg : V c main_v36 = msg) (hd : V c main_v12 = d) (hb : V c main_arg6 = b)
    (hf : V c main_arg8 = f) (hg : V c main_arg9 = g) :
    (dat2 V c).arrAt 6 cfg2.N = head p msg d b f g := by
  subst hp; subst hmsg; subst hd; subst hb; subst hf; subst hg; exact final2 V c

end Named

/-! ## The boundaries -/

variable (m : (ℓ : Loc nD τ sig) → Buf (Elt Ideal) ℓ) (ρ : Dev nD → PrngReg) (c : Dev nD)

/-- The hidden layer of the launched arguments. -/
def hidden (x : S100000x32.Idx → EReal) (ei : IVec S2x1600000 32) (wl1 : S16x32.Idx → EReal) (bl1 : S16.Idx → EReal)
    (wr1 : S16x32.Idx → EReal) : S100000x16.Idx → EReal :=
  hid x (segSum16 (F := Ideal) ei (proj x wl1)) (invDeg (F := Ideal) ei) wr1 bl1

/-- The program's result of the launched arguments. -/
def kval (x : S100000x32.Idx → EReal) (ei : IVec S2x1600000 32) (wl1 : S16x32.Idx → EReal) (bl1 : S16.Idx → EReal)
    (wr1 : S16x32.Idx → EReal) (wl2 : S8x16.Idx → EReal) (bl2 : S8.Idx → EReal) (wr2 : S8x16.Idx → EReal)
    (wfc : S1x8.Idx → EReal) (bfc : S1.Idx → EReal) : S100000x1.Idx → EReal :=
  head (proj (hidden x ei wl1 bl1 wr1) wr2) (segSum8 (F := Ideal) ei (proj (hidden x ei wl1 bl1 wr1) wl2))
    (invDeg (F := Ideal) ei) bl2 wfc bfc

/-! ### After the first host stretch -/
theorem V1_arg0 : V1 m ρ c main_arg0 = m ((c : Thread nD τ).loc main_arg0) := ops0_arg0 (W0 m ρ c)
theorem V1_arg2 : V1 m ρ c main_arg2 = m ((c : Thread nD τ).loc main_arg2) := ops0_arg2 (W0 m ρ c)

/-! ### After the first launch -/
theorem W2_v13 : W2 m ρ c (Proc.devRef .tc main_v13) = proj (m ((c : Thread nD τ).loc main_arg0)) (m ((c : Thread nD τ).loc main_arg2)) :=
  (W2_arr m ρ c 2).trans (final0_of (V1 m ρ) c _ _ (V1_arg0 m ρ c) (V1_arg2 m ρ c))
theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)
theorem W2_arg3 : W2 m ρ c (Proc.devRef .tc main_arg3) = m ((c : Thread nD τ).loc main_arg3) :=
  (W2_of_ne m ρ c main_arg3 (by decide)).trans (ops0_arg3 (W0 m ρ c))
theorem W2_arg4 : W2 m ρ c (Proc.devRef .tc main_arg4) = m ((c : Thread nD τ).loc main_arg4) :=
  (W2_of_ne m ρ c main_arg4 (by decide)).trans (ops0_arg4 (W0 m ρ c))
theorem W2_arg5 : W2 m ρ c (Proc.devRef .tc main_arg5) = m ((c : Thread nD τ).loc main_arg5) :=
  (W2_of_ne m ρ c main_arg5 (by decide)).trans (ops0_arg5 (W0 m ρ c))
theorem W2_arg6 : W2 m ρ c (Proc.devRef .tc main_arg6) = m ((c : Thread nD τ).loc main_arg6) :=
  (W2_of_ne m ρ c main_arg6 (by decide)).trans (ops0_arg6 (W0 m ρ c))
theorem W2_arg7 : W2 m ρ c (Proc.devRef .tc main_arg7) = m ((c : Thread nD τ).loc main_arg7) :=
  (W2_of_ne m ρ c main_arg7 (by decide)).trans (ops0_arg7 (W0 m ρ c))
theorem W2_arg8 : W2 m ρ c (Proc.devRef .tc main_arg8) = m ((c : Thread nD τ).loc main_arg8) :=
  (W2_of_ne m ρ c main_arg8 (by decide)).trans (ops0_arg8 (W0 m ρ c))
theorem W2_arg9 : W2 m ρ c (Proc.devRef .tc main_arg9) = m ((c : Thread nD τ).loc main_arg9) :=
  (W2_of_ne m ρ c main_arg9 (by decide)).trans (ops0_arg9 (W0 m ρ c))
theorem W2_v1 : W2 m ρ c (Proc.devRef .tc main_v1) = srcVec (m ((c : Thread nD τ).loc main_arg1)) :=
  (W2_of_ne m ρ c main_v1 (by decide)).trans (ops0_v1 (W0 m ρ c))
theorem W2_v3 : W2 m ρ c (Proc.devRef .tc main_v3) = dstVec (m ((c : Thread nD τ).loc main_arg1)) :=
  (W2_of_ne m ρ c main_v3 (by decide)).trans (ops0_v3 (W0 m ρ c))
theorem W2_v12 : W2 m ρ c (Proc.devRef .tc main_v12) = invDeg (F := Ideal) (m ((c : Thread nD τ).loc main_arg1)) :=
  (W2_of_ne m ρ c main_v12 (by decide)).trans (ops0_v12 (W0 m ρ c))

/-! ### After the second host stretch -/
theorem V3_arg0 : V3 m ρ c main_arg0 = m ((c : Thread nD τ).loc main_arg0) := (ops1_arg0 (W2 m ρ c)).trans (W2_arg0 m ρ c)
theorem V3_arg3 : V3 m ρ c main_arg3 = m ((c : Thread nD τ).loc main_arg3) := (ops1_arg3 (W2 m ρ c)).trans (W2_arg3 m ρ c)
theorem V3_arg4 : V3 m ρ c main_arg4 = m ((c : Thread nD τ).loc main_arg4) := (ops1_arg4 (W2 m ρ c)).trans (W2_arg4 m ρ c)
theorem V3_arg5 : V3 m ρ c main_arg5 = m ((c : Thread nD τ).loc main_arg5) := (ops1_arg5 (W2 m ρ c)).trans (W2_arg5 m ρ c)
theorem V3_arg7 : V3 m ρ c main_arg7 = m ((c : Thread nD τ).loc main_arg7) := (ops1_arg7 (W2 m ρ c)).trans (W2_arg7 m ρ c)
theorem V3_v12 : V3 m ρ c main_v12 = invDeg (F := Ideal) (m ((c : Thread nD τ).loc main_arg1)) :=
  (ops1_v12 (W2 m ρ c)).trans (W2_v12 m ρ c)
theorem V3_v24 : V3 m ρ c main_v24
    = segSum16 (F := Ideal) (m ((c : Thread nD τ).loc main_arg1)) (proj (m ((c : Thread nD τ).loc main_arg0)) (m ((c : Thread nD τ).loc main_arg2))) := by
  refine (ops1_v24 (W2 m ρ c)).trans ?_
  rw [W2_v1, W2_v3, W2_v13]
  rfl

/-! ### After the second launch -/
theorem W4_v25_0 : W4 m ρ c (Proc.devRef .tc main_v25_0)
    = proj (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) :=
  (W4_arr m ρ c 7).trans (final1_7_of (V3 m ρ) c _ _ _ _ _ _ (V3_arg0 m ρ c) (V3_v24 m ρ c) (V3_v12 m ρ c) (V3_arg4 m ρ c)
    (V3_arg3 m ρ c) (V3_arg5 m ρ c))
theorem W4_v25_1 : W4 m ρ c (Proc.devRef .tc main_v25_1)
    = proj (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg7)) :=
  (W4_arr m ρ c 8).trans (final1_8_of (V3 m ρ) c _ _ _ _ _ _ (V3_arg0 m ρ c) (V3_v24 m ρ c) (V3_v12 m ρ c) (V3_arg4 m ρ c)
    (V3_arg3 m ρ c) (V3_arg7 m ρ c))
theorem W4_v12 : W4 m ρ c (Proc.devRef .tc main_v12) = invDeg (F := Ideal) (m ((c : Thread nD τ).loc main_arg1)) :=
  ((W4_arr m ρ c 2).trans (((dat1 (V3 m ρ) c).arrAt_in 2 rfl _).trans (A_eq1 (V3 m ρ) c 2))).trans (V3_v12 m ρ c)
theorem W4_v1 : W4 m ρ c (Proc.devRef .tc main_v1) = srcVec (m ((c : Thread nD τ).loc main_arg1)) :=
  ((W4_of_ne m ρ c main_v1 (by decide)).trans (ops1_v1 (W2 m ρ c))).trans (W2_v1 m ρ c)
theorem W4_v3 : W4 m ρ c (Proc.devRef .tc main_v3) = dstVec (m ((c : Thread nD τ).loc main_arg1)) :=
  ((W4_of_ne m ρ c main_v3 (by decide)).trans (ops1_v3 (W2 m ρ c))).trans (W2_v3 m ρ c)
theorem W4_arg6 : W4 m ρ c (Proc.devRef .tc main_arg6) = m ((c : Thread nD τ).loc main_arg6) :=
  ((W4_of_ne m ρ c main_arg6 (by decide)).trans (ops1_arg6 (W2 m ρ c))).trans (W2_arg6 m ρ c)
theorem W4_arg8 : W4 m ρ c (Proc.devRef .tc main_arg8) = m ((c : Thread nD τ).loc main_arg8) :=
  ((W4_of_ne m ρ c main_arg8 (by decide)).trans (ops1_arg8 (W2 m ρ c))).trans (W2_arg8 m ρ c)
theorem W4_arg9 : W4 m ρ c (Proc.devRef .tc main_arg9) = m ((c : Thread nD τ).loc main_arg9) :=
  ((W4_of_ne m ρ c main_arg9 (by decide)).trans (ops1_arg9 (W2 m ρ c))).trans (W2_arg9 m ρ c)

/-! ### After the third host stretch -/
theorem V5_v25_1 : V5 m ρ c main_v25_1
    = proj (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg7)) :=
  (ops2_v25_1 (W4 m ρ c)).trans (W4_v25_1 m ρ c)
theorem V5_v12 : V5 m ρ c main_v12 = invDeg (F := Ideal) (m ((c : Thread nD τ).loc main_arg1)) := (ops2_v12 (W4 m ρ c)).trans (W4_v12 m ρ c)
theorem V5_arg6 : V5 m ρ c main_arg6 = m ((c : Thread nD τ).loc main_arg6) := (ops2_arg6 (W4 m ρ c)).trans (W4_arg6 m ρ c)
theorem V5_arg8 : V5 m ρ c main_arg8 = m ((c : Thread nD τ).loc main_arg8) := (ops2_arg8 (W4 m ρ c)).trans (W4_arg8 m ρ c)
theorem V5_arg9 : V5 m ρ c main_arg9 = m ((c : Thread nD τ).loc main_arg9) := (ops2_arg9 (W4 m ρ c)).trans (W4_arg9 m ρ c)
theorem V5_v36 : V5 m ρ c main_v36
    = segSum8 (F := Ideal) (m ((c : Thread nD τ).loc main_arg1))
        (proj (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) := by
  refine (ops2_v36 (W4 m ρ c)).trans ?_
  rw [W4_v1, W4_v3, W4_v25_0]
  rfl

/-! ### After the third launch -/
/-- The result buffer at the last boundary is the program's result of the launched arguments. -/
theorem W6_v37 : W6 m ρ c (Proc.devRef .tc main_v37)
    = kval (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 6).trans (final2_of (V5 m ρ) c _ _ _ _ _ _ (V5_v25_1 m ρ c) (V5_v36 m ρ c) (V5_v12 m ρ c) (V5_arg6 m ρ c)
    (V5_arg8 m ρ c) (V5_arg9 m ρ c))

end Cert.KernelIdeal.KChain

end
-- ==== Proof.KHost2.lean ====
/-
  The host terms read at an entry.

  On the extended reals a scatter-add is an exact sum, so the three host terms have closed forms entry by entry. The
  reciprocal-degree column at node n is one divided by the larger of the number of edges whose target is n and one.
  The aggregate of a table at (n, j) is the sum, over the edges whose target is n, of the table's entry (g e, j),
  where g e is the source of edge e read signed and clamped into the node range (the gather column is the wrapped
  source column; widening a narrower format is the identity on extended reals).
-/
import proofs.«102455_j22299470201097_2_alg».proof.Proof.KHost
import Idealize.ShloMosaic.Lib.IdealHost
import Idealize.ShloMosaic.Lib.Pipeline.Value
import Idealize.ShloMosaic.Lib.ValueIdx

noncomputable section

namespace Cert.KernelIdeal.KHost

open Cert.KernelIdeal Cert.KernelIdeal.Gen Idealize.ShloMosaic Idealize.ShloMosaic.ValueIdx
  Cert.Lib.SegmentSum Cert.Lib.SegMean Cert.Lib.GatherRows

/-- A vector over the nodes spread to a column, read at (n, 0). -/
theorem nodeCol_apply {α : Type} (v : S100000.Idx → α) (n : Fin 100000) :
    broadcastInDim S100000x1 ![0] bcast_S100000_S100000x1_0 v (ix2 n (0 : Fin 1)) = v (ix1 n) :=
  broadcastInDim_apply ![0] bcast_S100000_S100000x1_0 v (ix2 n (0 : Fin 1)) (ix1 n) (fun a => match a with
    | ⟨0, _⟩ => by show n.val = if (100000 : Nat) = 1 then 0 else n.val; rw [if_neg (by decide)])

/-- A constant spread to any shape reads, everywhere, the extended real its pattern denotes. -/
theorem splat_apply {T : Shape} (h : S_.BroadcastsInDim T (![] : Fin 0 → Fin T.rank)) (b : BitVec 32) (j : T.Idx) :
    broadcastInDim T ![] h (constant (F := Ideal) S_ .f32 b) j = Ideal.ofBits .f32 b := rfl

/-- A scatter-add of a vector of ones into a vector of zeros, read at n: the number of places whose index is n. -/
theorem vec_count_apply {N E : Nat} {φ : FTy} (wf : ScatterDims.WF ⟨1, ![N]⟩ ⟨2, ![E, 1]⟩ ⟨1, ![E]⟩ [] [0] [0] 1)
    (DS : ScatterDims ⟨1, ![N]⟩ ⟨2, ![E, 1]⟩ ⟨1, ![E]⟩) (hDS : DS = vecDims N E wf)
    (z : FVec Ideal ⟨1, ![N]⟩ φ) (hz : ∀ i, z i = 0) (sidx : IVec ⟨2, ![E, 1]⟩ 32)
    (o : FVec Ideal ⟨1, ![E]⟩ φ) (ho : ∀ i, o i = 1) (n : Fin N) :
    Host.scatterAdd DS z sidx o (ix1 n) = ∑ _e ∈ seg (N := N) sidx n, (1 : EReal) := by
  subst hDS
  show Ideal.hostScatterAdd (vecDims N E wf) z sidx o (ix1 n) = _
  rw [scatterAdd_vec_apply, hz, zero_add]
  exact Finset.sum_congr rfl fun e _ => ho _

/-- THE RECIPROCAL DEGREE READ AT NODE n: one over the larger of the number of edges into n and one. -/
theorem invDeg_apply (ei : IVec S2x1600000 32) (n : Fin 100000) :
    invDeg (F := Ideal) ei (ix2 n (0 : Fin 1)) = Ideal.div 1 (Cert.Spec.cnt (dstCol ei) n) := by
  unfold invDeg invDeg' Cert.Spec.cnt dstCol
  rw [nodeCol_apply, hostDivf_apply, maximumf_apply, splat_apply, Ideal.ofBits_one_f32]
  refine congrArg (Ideal.div 1) ?_
  refine congrArg (fun t => max t (1 : EReal)) ?_
  exact vec_count_apply scatter_S100000_S1600000x1_S1600000_n_0_0_1_wf scatter_S100000_S1600000x1_S1600000_n_0_0_1 rfl
    (broadcastInDim S100000 ![] bcast_S_S100000 (constant (F := Ideal) S_ .f32 0x00000000#32))
    (fun i => (splat_apply bcast_S_S100000 _ i).trans Ideal.ofBits_zero_f32) (dstCol' (dstVec ei))
    (broadcastInDim S1600000 ![] bcast_S_S1600000 (constant (F := Ideal) S_ .f32 0x3F800000#32))
    (fun i => (splat_apply bcast_S_S1600000 _ i).trans Ideal.ofBits_one_f32) n

/-- THE 16-COLUMN AGGREGATE READ AT (n, j): the table summed over the edges into n at the clamped source rows. -/
theorem segSum16_apply (ei : IVec S2x1600000 32) (y : FVec Ideal S100000x16 .bf16) (n : Fin 100000) (j : Fin 16) :
    segSum16 (F := Ideal) ei y (ix2 n j)
      = ∑ e ∈ Cert.Spec.edges (dstCol ei) n, y (ix2 (Cert.Spec.gat (srcCol ei) e) j) := by
  unfold segSum16 segSum16' dstCol srcCol Cert.Spec.gat
  exact seg_sum_gather_apply (φ := .f32) gather_S100000x16_S1600000x1_S1600000x16_1_0_n_n_0_1_116_wf
    scatter_S100000x16_S1600000x1_S1600000x16_1_0_0_1_wf
    gather_S100000x16_S1600000x1_S1600000x16_1_0_n_n_0_1_116 rfl
    scatter_S100000x16_S1600000x1_S1600000x16_1_0_0_1 rfl (by decide)
    (broadcastInDim S100000x16 ![] bcast_S_S100000x16 (constant (F := Ideal) S_ .f32 0x00000000#32))
    (fun i => (splat_apply bcast_S_S100000x16 _ i).trans Ideal.ofBits_zero_f32) y (srcCol' (srcVec ei)) (dstCol' (dstVec ei)) n j

/-- THE 8-COLUMN AGGREGATE READ AT (n, j). -/
theorem segSum8_apply (ei : IVec S2x1600000 32) (y : FVec Ideal S100000x8 .bf16) (n : Fin 100000) (j : Fin 8) :
    segSum8 (F := Ideal) ei y (ix2 n j)
      = ∑ e ∈ Cert.Spec.edges (dstCol ei) n, y (ix2 (Cert.Spec.gat (srcCol ei) e) j) := by
  unfold segSum8 segSum8' dstCol srcCol Cert.Spec.gat
  exact seg_sum_gather_apply (φ := .f32) gather_S100000x8_S1600000x1_S1600000x8_1_0_n_n_0_1_18_wf
    scatter_S100000x8_S1600000x1_S1600000x8_1_0_0_1_wf
    gather_S100000x8_S1600000x1_S1600000x8_1_0_n_n_0_1_18 rfl
    scatter_S100000x8_S1600000x1_S1600000x8_1_0_0_1 rfl (by decide)
    (broadcastInDim S100000x8 ![] bcast_S_S100000x8 (constant (F := Ideal) S_ .f32 0x00000000#32))
    (fun i => (splat_apply bcast_S_S100000x8 _ i).trans Ideal.ofBits_zero_f32) y (srcCol' (srcVec ei)) (dstCol' (dstVec ei)) n j

end Cert.KernelIdeal.KHost

end
-- ==== Proof.KValue.lean ====
/-
  The idealized kernel's result read at a node.

  Entry (n, 0) of the result is the head's weighted sum, over the eight output features o, of the second layer in the
  arrangement "project, aggregate, scale": the aggregated message at (n, o) is the sum over the edges into n of the
  hidden layer's row at the edge's source projected by the neighbour weights, its scale the reciprocal of the node's
  divisor, and the hidden layer itself is the rectified first layer in the same arrangement.
-/
import proofs.«102455_j22299470201097_2_alg».proof.Proof.KChain
import proofs.«102455_j22299470201097_2_alg».proof.Proof.KHost2

set_option maxRecDepth 16384

noncomputable section

namespace Cert.KernelIdeal.KValue

open Cert.KernelIdeal Cert.KernelIdeal.KReg Cert.KernelIdeal.KHost Cert.KernelIdeal.KChain Cert.Spec
open Idealize.ShloMosaic Idealize.ShloMosaic.ValueIdx

variable (x : S100000x32.Idx → EReal) (ei : IVec S2x1600000 32) (wl1 : S16x32.Idx → EReal) (bl1 : S16.Idx → EReal)
  (wr1 : S16x32.Idx → EReal) (wl2 : S8x16.Idx → EReal) (bl2 : S8.Idx → EReal) (wr2 : S8x16.Idx → EReal)
  (wfc : S1x8.Idx → EReal) (bfc : S1.Idx → EReal)

/-- The hidden layer at (n, j) is the rectified first layer, projected before it is aggregated. -/
theorem hidden_apply (n : Fin 100000) (j : Fin 16) :
    KChain.hidden x ei wl1 bl1 wr1 (ix2 n j)
      = relu (layerK (dstCol ei) (srcCol ei) (fun n k => x (ix2 n k)) (fun j k => wl1 (ix2 j k))
          (fun j k => wr1 (ix2 j k)) (fun j => bl1 (ix1 j))) n j := by
  unfold KChain.hidden
  show max (segSum16 (F := Ideal) ei (proj x wl1) (ix2 n j) * invDeg (F := Ideal) ei (ix2 n (0 : Fin 1)) + bl1 (ix1 j)
    + ∑ k : Fin 32, x (ix2 n k) * wr1 (ix2 j k)) 0 = _
  rw [segSum16_apply, invDeg_apply]
  rfl

/-- The result at (n, 0). -/
theorem kval_apply (n : Fin 100000) :
    kval x ei wl1 bl1 wr1 wl2 bl2 wr2 wfc bfc (ix2 n (0 : Fin 1))
      = (∑ o : Fin 8, layerK (dstCol ei) (srcCol ei)
            (relu (layerK (dstCol ei) (srcCol ei) (fun n k => x (ix2 n k)) (fun j k => wl1 (ix2 j k))
              (fun j k => wr1 (ix2 j k)) (fun j => bl1 (ix1 j))))
            (fun j k => wl2 (ix2 j k)) (fun j k => wr2 (ix2 j k)) (fun j => bl2 (ix1 j)) n o * wfc (ix2 (0 : Fin 1) o))
        + bfc (ix1 (0 : Fin 1)) := by
  unfold kval
  show (∑ o : Fin 8, (segSum8 (F := Ideal) ei (proj (KChain.hidden x ei wl1 bl1 wr1) wl2) (ix2 n o) * invDeg (F := Ideal) ei (ix2 n (0 : Fin 1))
      + bl2 (ix1 o) + proj (KChain.hidden x ei wl1 bl1 wr1) wr2 (ix2 n o)) * wfc (ix2 (0 : Fin 1) o)) + bfc (ix1 (0 : Fin 1)) = _
  refine congrArg (fun t : EReal => t + bfc (ix1 (0 : Fin 1))) (Finset.sum_congr rfl fun o _ => congrArg (fun t : EReal => t * wfc (ix2 (0 : Fin 1) o)) ?_)
  rw [segSum8_apply, invDeg_apply]
  unfold layerK
  refine congrArg₂ (· + ·) (congrArg₂ (· + ·) (congrArg₂ (· * ·) (Finset.sum_congr rfl fun e _ => ?_) rfl) rfl) ?_
  · show ∑ j : Fin 16, KChain.hidden x ei wl1 bl1 wr1 (ix2 (gat (srcCol ei) e) j) * wl2 (ix2 o j) = _
    exact Finset.sum_congr rfl fun j _ => congrArg (fun t : EReal => t * wl2 (ix2 o j)) (hidden_apply x ei wl1 bl1 wr1 _ j)
  · show ∑ j : Fin 16, KChain.hidden x ei wl1 bl1 wr1 (ix2 n j) * wr2 (ix2 o j) = _
    exact Finset.sum_congr rfl fun j _ => congrArg (fun t : EReal => t * wr2 (ix2 o j)) (hidden_apply x ei wl1 bl1 wr1 n j)

end Cert.KernelIdeal.KValue

end
-- ==== Proof.RefValue.lean ====
/-
  The reference program read at one entry of its result.

  The reference computes, for every node n, two graph-convolution layers with a rectifier between them and a linear
  head. Each layer gathers the rows of its feature table named by the edges' source column, adds the gathered rows
  into a zero table at the rows the edges' target column names, counts the edges of every node the same way with a
  vector of ones, divides the summed rows by the larger of the count and one, and then contracts the quotient with
  the neighbour weights, adds the bias, and adds the contraction of the node's own row with the root weights. On the
  extended reals every one of these steps is exact, so an entry of a layer's result is Spec.layerR of the layer's
  inputs, and the result of the whole program at node n is

      (Σ_o  layerR (relu (layerR X Wl1 Wr1 bl1)) Wl2 Wr2 bl2 n o · Wfc(0, o)) + bfc(0).

  The lemmas below read the program one group of operations at a time: the divisor, the summed rows, their quotient,
  the three terms of a layer, the rectifier; then the same for the second layer, and the head.
-/
import proofs.«102455_j22299470201097_2_alg».proof.Proof.Gen.ReferenceIdeal.Read
import proofs.«102455_j22299470201097_2_alg».proof.Proof.Spec
import Idealize.ShloMosaic.Lib.IdealHost

noncomputable section

namespace Cert.RefValue

open Cert.ReferenceIdeal Cert.ReferenceIdeal.Gen Cert.ReferenceIdeal.Read
open Idealize.ShloMosaic Idealize.ShloMosaic.ValueIdx
open Cert.Spec Cert.Lib.SegMean Cert.Lib.SegmentSum Cert.Lib.GatherRows

/-- A float array of the program, at the extended reals. -/
abbrev FA (S : Shape) : Type := (⟨S, .f32⟩ : BufTy).Contents (Elt Ideal)
/-- The edge list: row 0 the source nodes, row 1 the target nodes. -/
abbrev EI : Type := (⟨S2x1600000, .i32⟩ : BufTy).Contents (Elt Ideal)

/-- The scatter column: the target row of the edge list, as a column. -/
abbrev sidx (ei : EI) : ECol := Read.val_main_v12 (F := Ideal) ei
/-- The gather column: the source row of the edge list with negative entries wrapped once, as a column. -/
abbrev gidx (ei : EI) : ECol := Read.val_main_v9 (F := Ideal) ei

/-! ## Index functions of the layout operations, at coordinates -/

theorem ix_v20_v21 (n : Fin 100000) (k : Fin 32) : idx_main_v20 (idx_main_v21 (ix2 n k)) = ix1 n :=
  funext fun a => Fin.ext (by match a with | ⟨0, _⟩ => rfl)

theorem ix_v48_v49 (n : Fin 100000) (k : Fin 16) : idx_main_v48 (idx_main_v49 (ix2 n k)) = ix1 n :=
  funext fun a => Fin.ext (by match a with | ⟨0, _⟩ => rfl)

/-! ## The constant arrays -/

theorem zeros_v11 (i : S100000x32.Idx) : val_main_v11 (F := Ideal) i = 0 := by
  rw [val_main_v11_apply, val_main_cst_apply]; exact Ideal.ofBits_zero_f32

theorem zeros_v15 (i : S100000.Idx) : val_main_v15 (F := Ideal) i = 0 := by
  rw [val_main_v15_apply, val_main_cst_2_apply]; exact Ideal.ofBits_zero_f32

theorem ones_v14 (i : S1600000.Idx) : val_main_v14 (F := Ideal) i = 1 := by
  rw [val_main_v14_apply, val_main_cst_1_apply]; exact Ideal.ofBits_one_f32

theorem ones_v18 (i : S100000.Idx) : val_main_v18 (F := Ideal) i = 1 := by
  rw [val_main_v18_apply, val_main_cst_3_apply]; exact Ideal.ofBits_one_f32

theorem zeros_v39 (i : S100000x16.Idx) : val_main_v39 (F := Ideal) i = 0 := by
  rw [val_main_v39_apply, val_main_cst_6_apply]; exact Ideal.ofBits_zero_f32

theorem zeros_v43 (i : S100000.Idx) : val_main_v43 (F := Ideal) i = 0 := by
  rw [val_main_v43_apply, val_main_cst_8_apply]; exact Ideal.ofBits_zero_f32

theorem ones_v42 (i : S1600000.Idx) : val_main_v42 (F := Ideal) i = 1 := by
  rw [val_main_v42_apply, val_main_cst_7_apply]; exact Ideal.ofBits_one_f32

theorem ones_v46 (i : S100000.Idx) : val_main_v46 (F := Ideal) i = 1 := by
  rw [val_main_v46_apply, val_main_cst_9_apply]; exact Ideal.ofBits_one_f32

theorem zeros_relu (i : S100000x16.Idx) : val_main_call0_v0 (F := Ideal) i = 0 := by
  rw [val_main_call0_v0_apply, val_main_call0_cst_apply]; exact Ideal.ofBits_zero_f32

/-! ## The divisor -/

/-- A vector of ones added into a zero vector at the places a column names, compared with one: at n, the divisor of
    node n. -/
theorem count_vec_apply {N E : Nat} (wf1 : ScatterDims.WF ⟨1, ![N]⟩ ⟨2, ![E, 1]⟩ ⟨1, ![E]⟩ [] [0] [0] 1)
    (DS1 : ScatterDims ⟨1, ![N]⟩ ⟨2, ![E, 1]⟩ ⟨1, ![E]⟩) (hDS1 : DS1 = vecDims N E wf1)
    (z1 : FVec Ideal ⟨1, ![N]⟩ .f32) (hz1 : ∀ i, z1 i = 0) (o : FVec Ideal ⟨1, ![E]⟩ .f32) (ho : ∀ i, o i = 1)
    (o1 : FVec Ideal ⟨1, ![N]⟩ .f32) (ho1 : ∀ i, o1 i = 1) (s : IVec ⟨2, ![E, 1]⟩ 32) (n : Fin N) :
    maximumf (Host.scatterAdd DS1 z1 s o) o1 (ix1 n) = max (∑ _e ∈ seg s n, (1 : EReal)) 1 := by
  subst hDS1
  show max (Ideal.hostScatterAdd (vecDims N E wf1) z1 s o (ix1 n)) (o1 (ix1 n)) = _
  rw [scatterAdd_vec_apply, hz1, zero_add, ho1]
  congr 1
  exact Finset.sum_congr rfl fun e _ => ho _

theorem count_apply (z1 : FVec Ideal S100000 .f32) (hz1 : ∀ i, z1 i = 0) (o : FVec Ideal S1600000 .f32)
    (ho : ∀ i, o i = 1) (o1 : FVec Ideal S100000 .f32) (ho1 : ∀ i, o1 i = 1) (s : ECol) (n : Fin 100000) :
    maximumf (Host.scatterAdd scatter_S100000_S1600000x1_S1600000_n_0_0_1 z1 s o) o1 (ix1 n) = cnt s n :=
  count_vec_apply Gen.scatter_S100000_S1600000x1_S1600000_n_0_0_1_wf _ rfl z1 hz1 o ho o1 ho1 s n

/-- The first layer's divisor, spread along the 32 columns. -/
theorem den1_apply (ei : EI) (n : Fin 100000) (k : Fin 32) :
    val_main_v21 (F := Ideal) ei (ix2 n k) = cnt (sidx ei) n := by
  rw [val_main_v21_apply, val_main_v20_apply, ix_v20_v21]
  exact count_apply _ zeros_v15 _ ones_v14 _ ones_v18 (val_main_v16 (F := Ideal) ei) n

/-- The second layer's divisor, spread along the 16 columns. -/
theorem den2_apply (ei : EI) (n : Fin 100000) (k : Fin 16) :
    val_main_v49 (F := Ideal) ei (ix2 n k) = cnt (sidx ei) n := by
  rw [val_main_v49_apply, val_main_v48_apply, ix_v48_v49]
  exact count_apply _ zeros_v43 _ ones_v42 _ ones_v46 (val_main_v44 (F := Ideal) ei) n

/-! ## The first layer -/

/-- The first layer's summed rows: at (n, k), column k of the rows the edges of n name. -/
theorem num1_apply (x : FA S100000x32) (ei : EI) (n : Fin 100000) (k : Fin 32) :
    val_main_v13 (F := Ideal) x ei (ix2 n k) = ∑ e ∈ edges (sidx ei) n, x (ix2 (gat (gidx ei) e) k) := by
  unfold val_main_v13 val_main_v10
  exact seg_sum_gather_apply (M := 100000) (N := 100000) (E := 1600000) (C := 32)
    Gen.gather_S100000x32_S1600000x1_S1600000x32_1_0_n_n_0_1_132_wf
    Gen.scatter_S100000x32_S1600000x1_S1600000x32_1_0_0_1_wf _ rfl _ rfl (by decide) _ zeros_v11 x
    (val_main_v9 (F := Ideal) ei) (val_main_v12 (F := Ideal) ei) n k

/-- The first layer's mean over the edges. -/
theorem mean1_apply (x : FA S100000x32) (ei : EI) (n : Fin 100000) (k : Fin 32) :
    val_main_v22 (F := Ideal) x ei (ix2 n k)
      = Ideal.div (∑ e ∈ edges (sidx ei) n, x (ix2 (gat (gidx ei) e) k)) (cnt (sidx ei) n) := by
  rw [val_main_v22_apply, Ideal.hostDivf_def, num1_apply, den1_apply]

theorem lidx_v24 (n : Fin 100000) (j : Fin 16) (k : Fin 32) : lidx_main_v24 (ix2 n j) k = ix2 n k :=
  funext fun a => Fin.ext (by match a with | ⟨0, _⟩ => rfl | ⟨1, _⟩ => rfl)
theorem ridx_v24 (n : Fin 100000) (j : Fin 16) (k : Fin 32) : ridx_main_v24 (ix2 n j) k = ix2 k j :=
  funext fun a => Fin.ext (by match a with | ⟨0, _⟩ => rfl | ⟨1, _⟩ => rfl)
theorem ix_v23 (j : Fin 16) (k : Fin 32) : idx_main_v23 (ix2 k j) = ix2 j k :=
  funext fun a => Fin.ext (by match a with | ⟨0, _⟩ => rfl | ⟨1, _⟩ => rfl)
theorem lidx_v29 (n : Fin 100000) (j : Fin 16) (k : Fin 32) : lidx_main_v29 (ix2 n j) k = ix2 n k :=
  funext fun a => Fin.ext (by match a with | ⟨0, _⟩ => rfl | ⟨1, _⟩ => rfl)
theorem ridx_v29 (n : Fin 100000) (j : Fin 16) (k : Fin 32) : ridx_main_v29 (ix2 n j) k = ix2 k j :=
  funext fun a => Fin.ext (by match a with | ⟨0, _⟩ => rfl | ⟨1, _⟩ => rfl)
theorem ix_v28 (j : Fin 16) (k : Fin 32) : idx_main_v28 (ix2 k j) = ix2 j k :=
  funext fun a => Fin.ext (by match a with | ⟨0, _⟩ => rfl | ⟨1, _⟩ => rfl)
theorem ix_v25_v26 (n : Fin 100000) (j : Fin 16) : idx_main_v25 (idx_main_v26 (ix2 n j)) = ix1 j :=
  funext fun a => Fin.ext (by match a with | ⟨0, _⟩ => rfl)

/-- The mean contracted with the neighbour weights. -/
theorem nb1_apply (x : FA S100000x32) (ei : EI) (Wl1 : FA S16x32) (n : Fin 100000) (j : Fin 16) :
    val_main_v24 (F := Ideal) x ei Wl1 (ix2 n j)
      = ∑ k : Fin 32, Ideal.div (∑ e ∈ edges (sidx ei) n, x (ix2 (gat (gidx ei) e) k)) (cnt (sidx ei) n)
          * Wl1 (ix2 j k) := by
  rw [val_main_v24_apply]
  refine Finset.sum_congr rfl fun k _ => ?_
  rw [lidx_v24, ridx_v24, mean1_apply, val_main_v23_apply, ix_v23]

/-- The bias, spread along the nodes. -/
theorem bias1_apply (bl1 : FA S16) (n : Fin 100000) (j : Fin 16) :
    val_main_v26 (F := Ideal) bl1 (ix2 n j) = bl1 (ix1 j) := by
  rw [val_main_v26_apply, val_main_v25_apply, ix_v25_v26]

/-- The node's own row contracted with the root weights. -/
theorem root1_apply (x : FA S100000x32) (Wr1 : FA S16x32) (n : Fin 100000) (j : Fin 16) :
    val_main_v29 (F := Ideal) x Wr1 (ix2 n j) = ∑ k : Fin 32, x (ix2 n k) * Wr1 (ix2 j k) := by
  rw [val_main_v29_apply]
  refine Finset.sum_congr rfl fun k _ => ?_
  rw [lidx_v29, ridx_v29, val_main_v28_apply, ix_v28]

/-- The first layer's feature table, weights and bias as functions of coordinates. -/
abbrev X0 (x : FA S100000x32) : Fin NN → Fin 32 → EReal := fun n k => x (ix2 n k)
abbrev W2 {J K : Nat} (W : FA ⟨2, ![J, K]⟩) : Fin J → Fin K → EReal := fun j k => W (ix2 j k)
abbrev B1 {J : Nat} (b : FA ⟨1, ![J]⟩) : Fin J → EReal := fun j => b (ix1 j)

/-- THE FIRST LAYER before the rectifier. -/
theorem pre1_apply (x : FA S100000x32) (ei : EI) (Wl1 : FA S16x32) (bl1 : FA S16) (Wr1 : FA S16x32)
    (n : Fin 100000) (j : Fin 16) :
    val_main_v30 (F := Ideal) x ei Wl1 bl1 Wr1 (ix2 n j)
      = layerR (sidx ei) (gidx ei) (X0 x) (W2 Wl1) (W2 Wr1) (B1 bl1) n j := by
  rw [val_main_v30_apply, val_main_v27_apply, Ideal.addf_def, Ideal.addf_def, nb1_apply, bias1_apply, root1_apply]
  unfold layerR
  rfl

/-- The first layer's output table. -/
abbrev H1 (x : FA S100000x32) (ei : EI) (Wl1 : FA S16x32) (bl1 : FA S16) (Wr1 : FA S16x32) :
    Fin NN → Fin 16 → EReal :=
  relu (layerR (sidx ei) (gidx ei) (X0 x) (W2 Wl1) (W2 Wr1) (B1 bl1))

/-- THE FIRST LAYER after the rectifier. -/
theorem h1_apply (x : FA S100000x32) (ei : EI) (Wl1 : FA S16x32) (bl1 : FA S16) (Wr1 : FA S16x32)
    (n : Fin 100000) (j : Fin 16) :
    val_main_v31 (F := Ideal) x ei Wl1 bl1 Wr1 (ix2 n j) = H1 x ei Wl1 bl1 Wr1 n j := by
  rw [val_main_v31_apply, Ideal.maximumf_def, pre1_apply, zeros_relu]
  unfold H1 relu
  rfl

/-! ## The second layer -/

/-- The second layer gathers by the same column as the first: the wrap of negative entries is written out a second
    time in the program, with the same operations on the same source row. -/
theorem gidx2_eq (ei : EI) : val_main_v37 (F := Ideal) ei = gidx ei := rfl

/-- The second layer's summed rows: at (n, k), column k of the first layer's output at the rows the edges of n
    name. -/
theorem num2_apply (x : FA S100000x32) (ei : EI) (Wl1 : FA S16x32) (bl1 : FA S16) (Wr1 : FA S16x32)
    (n : Fin 100000) (k : Fin 16) :
    val_main_v41 (F := Ideal) x ei Wl1 bl1 Wr1 (ix2 n k)
      = ∑ e ∈ edges (sidx ei) n, H1 x ei Wl1 bl1 Wr1 (gat (gidx ei) e) k := by
  unfold val_main_v41 val_main_v38
  rw [gidx2_eq]
  refine (seg_sum_gather_apply (M := 100000) (N := 100000) (E := 1600000) (C := 16)
    Gen.gather_S100000x16_S1600000x1_S1600000x16_1_0_n_n_0_1_116_wf
    Gen.scatter_S100000x16_S1600000x1_S1600000x16_1_0_0_1_wf _ rfl _ rfl (by decide) _ zeros_v39
    (val_main_v31 (F := Ideal) x ei Wl1 bl1 Wr1) (val_main_v9 (F := Ideal) ei) (val_main_v40 (F := Ideal) ei) n k).trans ?_
  exact Finset.sum_congr rfl fun e _ => h1_apply x ei Wl1 bl1 Wr1 (gat (gidx ei) e) k

/-- The second layer's mean over the edges. -/
theorem mean2_apply (x : FA S100000x32) (ei : EI) (Wl1 : FA S16x32) (bl1 : FA S16) (Wr1 : FA S16x32)
    (n : Fin 100000) (k : Fin 16) :
    val_main_v50 (F := Ideal) x ei Wl1 bl1 Wr1 (ix2 n k)
      = Ideal.div (∑ e ∈ edges (sidx ei) n, H1 x ei Wl1 bl1 Wr1 (gat (gidx ei) e) k) (cnt (sidx ei) n) := by
  rw [val_main_v50_apply, Ideal.hostDivf_def, num2_apply, den2_apply]

theorem lidx_v52 (n : Fin 100000) (o : Fin 8) (k : Fin 16) : lidx_main_v52 (ix2 n o) k = ix2 n k :=
  funext fun a => Fin.ext (by match a with | ⟨0, _⟩ => rfl | ⟨1, _⟩ => rfl)
theorem ridx_v52 (n : Fin 100000) (o : Fin 8) (k : Fin 16) : ridx_main_v52 (ix2 n o) k = ix2 k o :=
  funext fun a => Fin.ext (by match a with | ⟨0, _⟩ => rfl | ⟨1, _⟩ => rfl)
theorem ix_v51 (o : Fin 8) (k : Fin 16) : idx_main_v51 (ix2 k o) = ix2 o k :=
  funext fun a => Fin.ext (by match a with | ⟨0, _⟩ => rfl | ⟨1, _⟩ => rfl)
theorem lidx_v57 (n : Fin 100000) (o : Fin 8) (k : Fin 16) : lidx_main_v57 (ix2 n o) k = ix2 n k :=
  funext fun a => Fin.ext (by match a with | ⟨0, _⟩ => rfl | ⟨1, _⟩ => rfl)
theorem ridx_v57 (n : Fin 100000) (o : Fin 8) (k : Fin 16) : ridx_main_v57 (ix2 n o) k = ix2 k o :=
  funext fun a => Fin.ext (by match a with | ⟨0, _⟩ => rfl | ⟨1, _⟩ => rfl)
theorem ix_v56 (o : Fin 8) (k : Fin 16) : idx_main_v56 (ix2 k o) = ix2 o k :=
  funext fun a => Fin.ext (by match a with | ⟨0, _⟩ => rfl | ⟨1, _⟩ => rfl)
theorem ix_v53_v54 (n : Fin 100000) (o : Fin 8) : idx_main_v53 (idx_main_v54 (ix2 n o)) = ix1 o :=
  funext fun a => Fin.ext (by match a with | ⟨0, _⟩ => rfl)

/-- The mean contracted with the neighbour weights. -/
theorem nb2_apply (x : FA S100000x32) (ei : EI) (Wl1 : FA S16x32) (bl1 : FA S16) (Wr1 : FA S16x32) (Wl2 : FA S8x16)
    (n : Fin 100000) (o : Fin 8) :
    val_main_v52 (F := Ideal) x ei Wl1 bl1 Wr1 Wl2 (ix2 n o)
      = ∑ k : Fin 16, Ideal.div (∑ e ∈ edges (sidx ei) n, H1 x ei Wl1 bl1 Wr1 (gat (gidx ei) e) k) (cnt (sidx ei) n)
          * Wl2 (ix2 o k) := by
  rw [val_main_v52_apply]
  refine Finset.sum_congr rfl fun k _ => ?_
  rw [lidx_v52, ridx_v52, mean2_apply, val_main_v51_apply, ix_v51]

/-- The bias, spread along the nodes. -/
theorem bias2_apply (bl2 : FA S8) (n : Fin 100000) (o : Fin 8) :
    val_main_v54 (F := Ideal) bl2 (ix2 n o) = bl2 (ix1 o) := by
  rw [val_main_v54_apply, val_main_v53_apply, ix_v53_v54]

/-- The node's own row of the first layer's output contracted with the root weights. -/
theorem root2_apply (x : FA S100000x32) (ei : EI) (Wl1 : FA S16x32) (bl1 : FA S16) (Wr1 : FA S16x32) (Wr2 : FA S8x16)
    (n : Fin 100000) (o : Fin 8) :
    val_main_v57 (F := Ideal) x ei Wl1 bl1 Wr1 Wr2 (ix2 n o)
      = ∑ k : Fin 16, H1 x ei Wl1 bl1 Wr1 n k * Wr2 (ix2 o k) := by
  rw [val_main_v57_apply]
  refine Finset.sum_congr rfl fun k _ => ?_
  rw [lidx_v57, ridx_v57, h1_apply, val_main_v56_apply, ix_v56]

/-- The second layer's output table. -/
abbrev H2 (x : FA S100000x32) (ei : EI) (Wl1 : FA S16x32) (bl1 : FA S16) (Wr1 : FA S16x32) (Wl2 : FA S8x16)
    (bl2 : FA S8) (Wr2 : FA S8x16) : Fin NN → Fin 8 → EReal :=
  layerR (sidx ei) (gidx ei) (H1 x ei Wl1 bl1 Wr1) (W2 Wl2) (W2 Wr2) (B1 bl2)

/-- THE SECOND LAYER. -/
theorem h2_apply (x : FA S100000x32) (ei : EI) (Wl1 : FA S16x32) (bl1 : FA S16) (Wr1 : FA S16x32) (Wl2 : FA S8x16)
    (bl2 : FA S8) (Wr2 : FA S8x16) (n : Fin 100000) (o : Fin 8) :
    val_main_v58 (F := Ideal) x ei Wl1 bl1 Wr1 Wl2 bl2 Wr2 (ix2 n o) = H2 x ei Wl1 bl1 Wr1 Wl2 bl2 Wr2 n o := by
  rw [val_main_v58_apply, val_main_v55_apply, Ideal.addf_def, Ideal.addf_def, nb2_apply, bias2_apply, root2_apply]
  unfold H2 layerR
  rfl

/-! ## The head -/

theorem lidx_v60 (n : Fin 100000) (o : Fin 8) : lidx_main_v60 (ix2 n (0 : Fin 1)) o = ix2 n o :=
  funext fun a => Fin.ext (by match a with | ⟨0, _⟩ => rfl | ⟨1, _⟩ => rfl)
theorem ridx_v60 (n : Fin 100000) (o : Fin 8) : ridx_main_v60 (ix2 n (0 : Fin 1)) o = ix2 o (0 : Fin 1) :=
  funext fun a => Fin.ext (by match a with | ⟨0, _⟩ => rfl | ⟨1, _⟩ => rfl)
theorem ix_v59 (o : Fin 8) : idx_main_v59 (ix2 o (0 : Fin 1)) = ix2 (0 : Fin 1) o :=
  funext fun a => Fin.ext (by match a with | ⟨0, _⟩ => rfl | ⟨1, _⟩ => rfl)
theorem ix_v61_v62 (n : Fin 100000) : idx_main_v61 (idx_main_v62 (ix2 n (0 : Fin 1))) = ix1 (0 : Fin 1) :=
  funext fun a => Fin.ext (by match a with | ⟨0, _⟩ => rfl)

/-- THE REFERENCE'S RESULT at node n, as a function of the argument arrays: the second layer's row of n contracted
    with the head's weights, plus the head's bias. -/
def outR (x : FA S100000x32) (ei : EI) (Wl1 : FA S16x32) (bl1 : FA S16) (Wr1 : FA S16x32) (Wl2 : FA S8x16)
    (bl2 : FA S8) (Wr2 : FA S8x16) (Wfc : FA S1x8) (bfc : FA S1) (n : Fin 100000) : EReal :=
  (∑ o : Fin 8,
      layerR (sidx ei) (gidx ei) (relu (layerR (sidx ei) (gidx ei) (X0 x) (W2 Wl1) (W2 Wr1) (B1 bl1)))
        (W2 Wl2) (W2 Wr2) (B1 bl2) n o * Wfc (ix2 (0 : Fin 1) o))
    + bfc (ix1 (0 : Fin 1))

/-- THE REFERENCE READ AT (n, 0). -/
theorem ref_apply (x : FA S100000x32) (ei : EI) (Wl1 : FA S16x32) (bl1 : FA S16) (Wr1 : FA S16x32) (Wl2 : FA S8x16)
    (bl2 : FA S8) (Wr2 : FA S8x16) (Wfc : FA S1x8) (bfc : FA S1) (n : Fin 100000) :
    Read.val_main_v63 (F := Ideal) x ei Wl1 bl1 Wr1 Wl2 bl2 Wr2 Wfc bfc (ValueIdx.ix2 n (0 : Fin 1))
      = outR x ei Wl1 bl1 Wr1 Wl2 bl2 Wr2 Wfc bfc n := by
  rw [val_main_v63_apply, Ideal.addf_def, val_main_v60_apply, val_main_v62_apply, val_main_v61_apply, ix_v61_v62]
  unfold outR
  refine congrArg (fun t : EReal => t + bfc (ix1 (0 : Fin 1))) ?_
  refine Finset.sum_congr rfl fun o _ => ?_
  rw [lidx_v60, ridx_v60, h2_apply, val_main_v59_apply, ix_v59]

end Cert.RefValue

end
-- ==== Proof.LibBatchStats.lean ====
/-
  Batch statistics over the extended reals.

  A batch-normalisation layer needs the mean and the (biased) variance of a finite family of numbers. Two
  spellings of the variance occur: the centred one, the mean of the squared deviations from the mean, and the
  one-pass one, the mean of the squares less the square of the mean, clamped below at zero. On real numbers the two
  are the same number, and the centred one is non-negative, so the clamp does nothing. The lemmas here say so over
  the reals, and carry the statement to the extended reals for families all of whose members are real, where a sum, a
  quotient by a non-zero real, a product and a difference of reals are again the coercions of the real results.
-/
import Idealize.ShloMosaic.PureOps.Ideal

noncomputable section

namespace Cert.Lib.BatchStats

open Idealize.ShloMosaic

variable {ι : Type*}

/-- The coercion of the reals into the extended reals commutes with a finite sum. -/
theorem coe_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals, the divisor not zero, on the extended reals is the real quotient. -/
theorem div_coe_coe (a b : ℝ) (hb : b ≠ 0) : Ideal.div (a : EReal) (b : EReal) = ((a / b : ℝ) : EReal) := by
  rw [Ideal.div_coe hb, ← EReal.coe_mul, mul_one_div]

/-- The sum of the squared deviations from a number mu, expanded: the sum of the squares, less twice mu times the
    sum, plus the count times mu squared. -/
theorem sum_sq_dev (s : Finset ι) (x : ι → ℝ) (μ : ℝ) :
    ∑ i ∈ s, (x i - μ) * (x i - μ) = ∑ i ∈ s, x i * x i - 2 * μ * ∑ i ∈ s, x i + (s.card : ℝ) * (μ * μ) := by
  have h : ∀ i ∈ s, (x i - μ) * (x i - μ) = x i * x i - 2 * μ * x i + μ * μ := fun i _ => by ring
  rw [Finset.sum_congr rfl h, Finset.sum_add_distrib, Finset.sum_sub_distrib, ← Finset.mul_sum, Finset.sum_const,
    nsmul_eq_mul]

/-- ONE-PASS VARIANCE IS THE CENTRED VARIANCE. For n real numbers (n not zero) the mean of the squares less the
    square of the mean is the mean of the squared deviations from the mean. -/
theorem var_onepass_eq_centred (s : Finset ι) (x : ι → ℝ) (n : ℝ) (hn : (s.card : ℝ) = n) (h0 : n ≠ 0) :
    (∑ i ∈ s, x i * x i) / n - (∑ i ∈ s, x i) / n * ((∑ i ∈ s, x i) / n)
      = (∑ i ∈ s, (x i - (∑ j ∈ s, x j) / n) * (x i - (∑ j ∈ s, x j) / n)) / n := by
  rw [sum_sq_dev, hn]
  field_simp
  ring

/-- The centred variance of real numbers is not negative (the divisor positive). -/
theorem centred_var_nonneg (s : Finset ι) (x : ι → ℝ) (μ n : ℝ) (hn : 0 < n) :
    0 ≤ (∑ i ∈ s, (x i - μ) * (x i - μ)) / n :=
  div_nonneg (Finset.sum_nonneg fun i _ => mul_self_nonneg _) hn.le

/-- So clamping the one-pass variance below at zero changes nothing: it is the centred variance. -/
theorem max_var_onepass (s : Finset ι) (x : ι → ℝ) (n : ℝ) (hn : (s.card : ℝ) = n) (h0 : 0 < n) :
    max ((∑ i ∈ s, x i * x i) / n - (∑ i ∈ s, x i) / n * ((∑ i ∈ s, x i) / n)) 0
      = (∑ i ∈ s, (x i - (∑ j ∈ s, x j) / n) * (x i - (∑ j ∈ s, x j) / n)) / n := by
  rw [var_onepass_eq_centred s x n hn h0.ne']
  exact max_eq_left (centred_var_nonneg s x _ n h0)

/-- The same on the extended reals, for a family of reals: the sums, quotients, products, the difference and the
    maximum are the coercions of the real ones. The left side is the one-pass spelling with its clamp, the right
    side the centred spelling. -/
theorem max_var_onepass_ereal (s : Finset ι) (x : ι → ℝ) (n : ℝ) (hn : (s.card : ℝ) = n) (h0 : 0 < n) :
    max (Ideal.div (∑ i ∈ s, (x i : EReal) * (x i : EReal)) (n : EReal)
          - Ideal.div (∑ i ∈ s, (x i : EReal)) (n : EReal) * Ideal.div (∑ i ∈ s, (x i : EReal)) (n : EReal)) 0
      = Ideal.div (∑ i ∈ s, ((x i : EReal) - Ideal.div (∑ j ∈ s, (x j : EReal)) (n : EReal))
          * ((x i : EReal) - Ideal.div (∑ j ∈ s, (x j : EReal)) (n : EReal))) (n : EReal) := by
  have hne : n ≠ 0 := h0.ne'
  have e1 : ∑ i ∈ s, (x i : EReal) = ((∑ i ∈ s, x i : ℝ) : EReal) := (coe_sum s x).symm
  have e2 : ∑ i ∈ s, (x i : EReal) * (x i : EReal) = ((∑ i ∈ s, x i * x i : ℝ) : EReal) := by
    rw [coe_sum]; exact Finset.sum_congr rfl fun i _ => (EReal.coe_mul _ _).symm
  rw [e1, e2, div_coe_coe _ _ hne, div_coe_coe _ _ hne]
  have e3 : ∑ i ∈ s, ((x i : EReal) - (((∑ j ∈ s, x j) / n : ℝ) : EReal)) * ((x i : EReal) - (((∑ j ∈ s, x j) / n : ℝ) : EReal))
      = ((∑ i ∈ s, (x i - (∑ j ∈ s, x j) / n) * (x i - (∑ j ∈ s, x j) / n) : ℝ) : EReal) := by
    rw [coe_sum]; exact Finset.sum_congr rfl fun i _ => by rw [← EReal.coe_sub, ← EReal.coe_mul]
  rw [e3, div_coe_coe _ _ hne, ← EReal.coe_mul, ← EReal.coe_sub, ← EReal.coe_zero,
    ← EReal.coe_strictMono.monotone.map_max, max_var_onepass s x n hn h0]

end Cert.Lib.BatchStats

end
-- ==== Proof.LibAggregate.lean ====
/-
  Aggregating before or after a linear map.

  A graph convolution sums, for a node, its neighbours' feature rows scaled by edge weights, adds the node's own row
  scaled by a self weight, and applies a weight matrix. Applying the matrix to every row first and aggregating the
  products gives the same numbers: for real entries this is distributivity and the exchange of two finite sums. On the
  extended reals the law is used only for families all of whose members are real; there every sum and product is the
  coercion of the real one, so the law is inherited.
-/
import proofs.«102455_j22299470201097_2_alg».proof.Proof.LibBatchStats

noncomputable section

namespace Cert.Lib.Aggregate

open Cert.Lib.BatchStats

variable {ε κ : Type*}

/-- Over the reals: the aggregated row (the neighbours' rows X e, weighted by nu e, over the edge set S, plus the own
    row Y weighted by delta) contracted with a column W of the matrix is the aggregate of the contracted rows. -/
theorem agg_mul_real (S : Finset ε) (K : Finset κ) (X : ε → κ → ℝ) (ν : ε → ℝ) (Y : κ → ℝ) (δ : ℝ) (W : κ → ℝ) :
    ∑ k ∈ K, ((∑ e ∈ S, X e k * ν e) + Y k * δ) * W k
      = (∑ e ∈ S, (∑ k ∈ K, X e k * W k) * ν e) + (∑ k ∈ K, Y k * W k) * δ := by
  have h1 : ∀ k ∈ K, ((∑ e ∈ S, X e k * ν e) + Y k * δ) * W k = (∑ e ∈ S, X e k * W k * ν e) + Y k * W k * δ := by
    intro k _
    rw [add_mul, Finset.sum_mul]
    congr 1
    · exact Finset.sum_congr rfl fun e _ => by ring
    · ring
  rw [Finset.sum_congr rfl h1, Finset.sum_add_distrib, Finset.sum_comm, ← Finset.sum_mul]
  congr 1
  exact Finset.sum_congr rfl fun e _ => (Finset.sum_mul _ _ _).symm

/-- The same on the extended reals for real families. -/
theorem agg_mul_ereal (S : Finset ε) (K : Finset κ) (X : ε → κ → ℝ) (ν : ε → ℝ) (Y : κ → ℝ) (δ : ℝ) (W : κ → ℝ) :
    ∑ k ∈ K, ((∑ e ∈ S, (X e k : EReal) * (ν e : EReal)) + (Y k : EReal) * (δ : EReal)) * (W k : EReal)
      = (∑ e ∈ S, (∑ k ∈ K, (X e k : EReal) * (W k : EReal)) * (ν e : EReal))
        + (∑ k ∈ K, (Y k : EReal) * (W k : EReal)) * (δ : EReal) := by
  have hl : ∀ k, ((∑ e ∈ S, (X e k : EReal) * (ν e : EReal)) + (Y k : EReal) * (δ : EReal)) * (W k : EReal)
      = ((((∑ e ∈ S, X e k * ν e) + Y k * δ) * W k : ℝ) : EReal) := by
    intro k
    rw [EReal.coe_mul, EReal.coe_add, EReal.coe_mul, coe_sum]
    congr 3
  have hr : ∀ (Z : κ → ℝ), ∑ k ∈ K, (Z k : EReal) * (W k : EReal) = ((∑ k ∈ K, Z k * W k : ℝ) : EReal) := by
    intro Z
    rw [coe_sum]
    exact Finset.sum_congr rfl fun k _ => (EReal.coe_mul _ _).symm
  rw [Finset.sum_congr rfl fun k _ => hl k, ← coe_sum, agg_mul_real, EReal.coe_add, EReal.coe_mul, hr Y, coe_sum]
  congr 1
  exact Finset.sum_congr rfl fun e _ => by rw [EReal.coe_mul, hr (X e)]

end Cert.Lib.Aggregate

end
-- ==== Proof.LibReal.lean ====
/-
  Real-valued extended reals are closed under the operations the network uses.

  An extended real is called real here when it is the coercion of a real number. Sums (finite), products, differences,
  maxima and the ideal quotient of two such, and the inverse square root of a positive one, are again real.
-/
import proofs.«102455_j22299470201097_2_alg».proof.Proof.LibBatchStats

noncomputable section

namespace Cert.Lib.IsR

open Idealize.ShloMosaic Cert.Lib.BatchStats

/-- The extended real a is a real number. -/
def IsR (a : EReal) : Prop := ∃ r : ℝ, a = (r : EReal)

theorem coe (r : ℝ) : IsR (r : EReal) := ⟨r, rfl⟩
theorem zero : IsR 0 := ⟨0, rfl⟩
theorem add {a b : EReal} (ha : IsR a) (hb : IsR b) : IsR (a + b) := by
  obtain ⟨x, rfl⟩ := ha; obtain ⟨y, rfl⟩ := hb; exact ⟨x + y, (EReal.coe_add x y).symm⟩
theorem mul {a b : EReal} (ha : IsR a) (hb : IsR b) : IsR (a * b) := by
  obtain ⟨x, rfl⟩ := ha; obtain ⟨y, rfl⟩ := hb; exact ⟨x * y, (EReal.coe_mul x y).symm⟩
theorem sub {a b : EReal} (ha : IsR a) (hb : IsR b) : IsR (a - b) := by
  obtain ⟨x, rfl⟩ := ha; obtain ⟨y, rfl⟩ := hb; exact ⟨x - y, (EReal.coe_sub x y).symm⟩
theorem max {a b : EReal} (ha : IsR a) (hb : IsR b) : IsR (Max.max a b) := by
  rcases max_choice a b with h | h <;> rw [h] <;> assumption
theorem sum {ι : Type*} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))
theorem div {a : EReal} (ha : IsR a) (n : ℝ) (hn : n ≠ 0) : IsR (Ideal.div a (n : EReal)) := by
  obtain ⟨x, rfl⟩ := ha; exact ⟨x / n, div_coe_coe x n hn⟩
/-- The inverse square root of a positive real is real. -/
theorem rsqrt_pos (r : ℝ) (h : 0 < r) : IsR (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

end Cert.Lib.IsR

end
-- ==== Proof.LayerLaw.lean ====
/-
  The two arrangements of one graph-convolution layer agree on real inputs.

  For a node with edge set S and divisor c (a real number, at least one), neighbour rows x e and a weight row w,

      (Σ_{e ∈ S} Σ_k x e k · w k) · (1 / c)  =  Σ_k ((Σ_{e ∈ S} x e k) / c) · w k :

  exchange the two finite sums, pull the factor w k out of the inner sum, and move the scalar 1 / c inside. Over the
  reals this is distributivity. On the extended reals every sum, product and quotient of real numbers (the divisor
  not zero) is the coercion of the real result, so the law is inherited whenever the features and the neighbour
  weights are real. The root term and the bias are the same expression in both arrangements and need no hypothesis.
-/
import proofs.«102455_j22299470201097_2_alg».proof.Proof.Spec
import proofs.«102455_j22299470201097_2_alg».proof.Proof.LibAggregate
import proofs.«102455_j22299470201097_2_alg».proof.Proof.LibReal

noncomputable section

namespace Cert.LayerLaw

open Idealize.ShloMosaic Cert.Spec Cert.Lib.BatchStats
open Cert.Lib.IsR (IsR)

variable {ε κ : Type*}

/-- Over the reals: project, aggregate and scale by 1 / c is aggregate, divide by c and project. -/
theorem law_real (S : Finset ε) (Kf : Finset κ) (x : ε → κ → ℝ) (w : κ → ℝ) (c : ℝ) :
    (∑ e ∈ S, ∑ k ∈ Kf, x e k * w k) * (1 / c) = ∑ k ∈ Kf, (∑ e ∈ S, x e k) / c * w k := by
  rw [Finset.sum_comm, Finset.sum_mul]
  refine Finset.sum_congr rfl fun k _ => ?_
  rw [← Finset.sum_mul]
  ring

/-- The same on the extended reals for real families and a non-zero real divisor. -/
theorem law_ereal (S : Finset ε) (Kf : Finset κ) (x : ε → κ → ℝ) (w : κ → ℝ) (c : ℝ) (hc : c ≠ 0) :
    (∑ e ∈ S, ∑ k ∈ Kf, (x e k : EReal) * (w k : EReal)) * Ideal.div 1 (c : EReal)
      = ∑ k ∈ Kf, Ideal.div (∑ e ∈ S, (x e k : EReal)) (c : EReal) * (w k : EReal) := by
  have hl : ∑ e ∈ S, ∑ k ∈ Kf, (x e k : EReal) * (w k : EReal)
      = ((∑ e ∈ S, ∑ k ∈ Kf, x e k * w k : ℝ) : EReal) := by
    rw [coe_sum]
    refine Finset.sum_congr rfl fun e _ => ?_
    rw [coe_sum]
    exact Finset.sum_congr rfl fun k _ => (EReal.coe_mul _ _).symm
  have hd : Ideal.div 1 (c : EReal) = ((1 / c : ℝ) : EReal) := by
    rw [← div_coe_coe 1 c hc, EReal.coe_one]
  have hr : ∀ k, Ideal.div (∑ e ∈ S, (x e k : EReal)) (c : EReal) * (w k : EReal)
      = (((∑ e ∈ S, x e k) / c * w k : ℝ) : EReal) := by
    intro k
    rw [← coe_sum, div_coe_coe _ _ hc, ← EReal.coe_mul]
  rw [hl, hd, ← EReal.coe_mul, law_real, coe_sum]
  exact Finset.sum_congr rfl fun k _ => (hr k).symm

/-- The divisor of a node is a real number, at least one. -/
theorem cnt_real (sidx : ECol) (n : Fin NN) : ∃ r : ℝ, 1 ≤ r ∧ cnt sidx n = (r : EReal) := by
  refine ⟨max (∑ _e ∈ edges sidx n, (1 : ℝ)) 1, le_max_right _ _, ?_⟩
  unfold cnt
  rw [EReal.coe_strictMono.monotone.map_max, coe_sum, EReal.coe_one]

variable {K J : Nat}

/-- THE LAYER LAW. On real features and real neighbour weights the two arrangements of a layer are the same number
    at every node and every output column. -/
theorem layer_eq (sidx gidx : ECol) (X : Fin NN → Fin K → EReal) (Wl Wr : Fin J → Fin K → EReal)
    (b : Fin J → EReal) (hX : ∀ n k, IsR (X n k)) (hWl : ∀ j k, IsR (Wl j k)) (n : Fin NN) (j : Fin J) :
    layerK sidx gidx X Wl Wr b n j = layerR sidx gidx X Wl Wr b n j := by
  obtain ⟨c, hc1, hc⟩ := cnt_real sidx n
  have hc0 : c ≠ 0 := by linarith
  choose x hx using hX
  choose w hw using hWl
  have key := law_ereal (edges sidx n) Finset.univ (fun e k => x (gat gidx e) k) (w j) c hc0
  unfold layerK layerR
  rw [hc]
  simp only [hx, hw]
  rw [key]

/-- A layer of real features, weights and bias is real. -/
theorem layerR_isR (sidx gidx : ECol) (X : Fin NN → Fin K → EReal) (Wl Wr : Fin J → Fin K → EReal)
    (b : Fin J → EReal) (hX : ∀ n k, IsR (X n k)) (hWl : ∀ j k, IsR (Wl j k)) (hWr : ∀ j k, IsR (Wr j k))
    (hb : ∀ j, IsR (b j)) (n : Fin NN) (j : Fin J) : IsR (layerR sidx gidx X Wl Wr b n j) := by
  obtain ⟨c, hc1, hc⟩ := cnt_real sidx n
  have hc0 : c ≠ 0 := by linarith
  unfold layerR
  rw [hc]
  exact Cert.Lib.IsR.add
    (Cert.Lib.IsR.add
      (Cert.Lib.IsR.sum _ _ fun k _ =>
        Cert.Lib.IsR.mul (Cert.Lib.IsR.div (Cert.Lib.IsR.sum _ _ fun e _ => hX _ _) c hc0) (hWl j k))
      (hb j))
    (Cert.Lib.IsR.sum _ _ fun k _ => Cert.Lib.IsR.mul (hX n k) (hWr j k))

/-- The rectifier of a real table is real. -/
theorem relu_isR (X : Fin NN → Fin J → EReal) (hX : ∀ n j, IsR (X n j)) (n : Fin NN) (j : Fin J) :
    IsR (relu X n j) :=
  Cert.Lib.IsR.max (hX n j) Cert.Lib.IsR.zero

end Cert.LayerLaw

end
-- ==== Proof.Bridge.lean ====
/-
  The two programs meet: their index columns are the same terms of the edge array, and their two arrangements of a
  layer give the same result on real inputs.

  Both programs take row 1 of the edge array, reshaped to a vector and spread to a column, as the scatter column, and
  row 0, reshaped, with the number of nodes added once to every negative entry, and spread to a column, as the gather
  column. The operations are the same in the same order on both sides, so the columns are equal by unfolding.

  One program projects the gathered rows with the neighbour weights before summing them over the edges and scales the
  sum by the reciprocal of the divisor (Spec.layerK); the other sums, divides and projects afterwards (Spec.layerR).
  On real features and real neighbour weights the two are the same number (the layer law). The first layer's output is
  then real (real root weights and bias are needed for that), its rectifier is real, and the law applies again at the
  second layer. The head is the same expression on both sides.
-/
import proofs.«102455_j22299470201097_2_alg».proof.Proof.RefValue
import proofs.«102455_j22299470201097_2_alg».proof.Proof.LayerLaw
import proofs.«102455_j22299470201097_2_alg».proof.Proof.KHost

noncomputable section

namespace Cert.Bridge

open Idealize.ShloMosaic Idealize.ShloMosaic.ValueIdx
open Cert.Spec Cert.RefValue Cert.LayerLaw
open Cert.Lib.IsR (IsR)

/-! ## The index columns -/

/-- The scatter column: row 1 of the edge array, as a column, in both programs. -/
theorem sidx_eq (ei : IVec Cert.KernelIdeal.S2x1600000 32) :
    Cert.RefValue.sidx ei = Cert.KernelIdeal.KHost.dstCol ei := rfl

/-- The gather column: row 0 of the edge array with the negative entries wrapped once, as a column, in both
    programs. -/
theorem gidx_eq (ei : IVec Cert.KernelIdeal.S2x1600000 32) :
    Cert.RefValue.gidx ei = Cert.KernelIdeal.KHost.srcCol ei := rfl

/-! ## The two arrangements -/

/-- THE TWO ARRANGEMENTS OF THE WHOLE NETWORK AGREE on real features, real first-layer weights and bias, and real
    second-layer neighbour weights. -/
theorem out_eq (x : FA Cert.ReferenceIdeal.S100000x32) (ei : EI) (Wl1 : FA Cert.ReferenceIdeal.S16x32)
    (bl1 : FA Cert.ReferenceIdeal.S16) (Wr1 : FA Cert.ReferenceIdeal.S16x32) (Wl2 : FA Cert.ReferenceIdeal.S8x16)
    (bl2 : FA Cert.ReferenceIdeal.S8) (Wr2 : FA Cert.ReferenceIdeal.S8x16) (Wfc : FA Cert.ReferenceIdeal.S1x8)
    (bfc : FA Cert.ReferenceIdeal.S1)
    (hx : ∀ i, IsR (x i)) (hWl1 : ∀ i, IsR (Wl1 i)) (hbl1 : ∀ i, IsR (bl1 i)) (hWr1 : ∀ i, IsR (Wr1 i))
    (hWl2 : ∀ i, IsR (Wl2 i)) (n : Fin 100000) :
    (∑ o : Fin 8,
        layerK (sidx ei) (gidx ei) (relu (layerK (sidx ei) (gidx ei) (X0 x) (W2 Wl1) (W2 Wr1) (B1 bl1)))
          (W2 Wl2) (W2 Wr2) (B1 bl2) n o * Wfc (ix2 (0 : Fin 1) o))
      + bfc (ix1 (0 : Fin 1))
      = outR x ei Wl1 bl1 Wr1 Wl2 bl2 Wr2 Wfc bfc n := by
  have hX : ∀ n k, IsR (X0 x n k) := fun n k => hx _
  have hL1 : ∀ j k, IsR (W2 Wl1 j k) := fun j k => hWl1 _
  have hR1 : ∀ j k, IsR (W2 Wr1 j k) := fun j k => hWr1 _
  have hB1 : ∀ j, IsR (B1 bl1 j) := fun j => hbl1 _
  have hL2 : ∀ j k, IsR (W2 Wl2 j k) := fun j k => hWl2 _
  have e1 : layerK (sidx ei) (gidx ei) (X0 x) (W2 Wl1) (W2 Wr1) (B1 bl1)
      = layerR (sidx ei) (gidx ei) (X0 x) (W2 Wl1) (W2 Wr1) (B1 bl1) :=
    funext fun n => funext fun j => layer_eq _ _ _ _ _ _ hX hL1 n j
  have hH : ∀ n j, IsR (relu (layerR (sidx ei) (gidx ei) (X0 x) (W2 Wl1) (W2 Wr1) (B1 bl1)) n j) :=
    fun n j => relu_isR _ (layerR_isR _ _ _ _ _ _ hX hL1 hR1 hB1) n j
  unfold outR
  rw [e1]
  refine congrArg (fun t : EReal => t + bfc (ix1 (0 : Fin 1))) ?_
  refine Finset.sum_congr rfl fun o _ => ?_
  rw [layer_eq _ _ _ _ _ _ hH hL2 n o]

end Cert.Bridge

end
-- ==== Proof.Final.lean ====
/-
  The two programs compute one function of real inputs.

  Read at a node, the reference's result is the head over the second layer in the arrangement "aggregate, divide,
  project" of the rectified first layer in that arrangement; the kernel's is the same with both layers in the
  arrangement "project, aggregate, scale". The two index columns of the edge array are the same terms in both
  programs, and for real features and weights the two arrangements of a layer agree, the hidden table staying real.
-/
import proofs.«102455_j22299470201097_2_alg».proof.Proof.KValue
import proofs.«102455_j22299470201097_2_alg».proof.Proof.Bridge

set_option maxRecDepth 16384

noncomputable section

namespace Cert.Final

open Idealize.ShloMosaic Idealize.ShloMosaic.ValueIdx Cert.Lib.IsR

theorem value_eq (x : Cert.KernelIdeal.S100000x32.Idx → EReal) (ei : IVec Cert.KernelIdeal.S2x1600000 32)
    (wl1 : Cert.KernelIdeal.S16x32.Idx → EReal) (bl1 : Cert.KernelIdeal.S16.Idx → EReal)
    (wr1 : Cert.KernelIdeal.S16x32.Idx → EReal) (wl2 : Cert.KernelIdeal.S8x16.Idx → EReal)
    (bl2 : Cert.KernelIdeal.S8.Idx → EReal) (wr2 : Cert.KernelIdeal.S8x16.Idx → EReal)
    (wfc : Cert.KernelIdeal.S1x8.Idx → EReal) (bfc : Cert.KernelIdeal.S1.Idx → EReal)
    (hx : ∀ i, IsR (x i)) (hwl1 : ∀ i, IsR (wl1 i)) (hbl1 : ∀ i, IsR (bl1 i)) (hwr1 : ∀ i, IsR (wr1 i))
    (hwl2 : ∀ i, IsR (wl2 i)) :
    Cert.ReferenceIdeal.Read.val_main_v63 (F := Ideal) x ei wl1 bl1 wr1 wl2 bl2 wr2 wfc bfc
      = Cert.KernelIdeal.KChain.kval x ei wl1 bl1 wr1 wl2 bl2 wr2 wfc bfc := by
  funext i
  obtain ⟨n, rfl⟩ : ∃ n : Fin 100000, i = ix2 n (0 : Fin 1) :=
    ⟨⟨(i 0).val, idx2_lt0 i⟩, (eq_ix2 i).trans (congrArg (ix2 _) (Fin.ext (by
      have h : (i 1).val < 1 := idx2_lt1 i
      show (i 1).val = 0
      omega)))⟩
  refine (Cert.RefValue.ref_apply x ei wl1 bl1 wr1 wl2 bl2 wr2 wfc bfc n).trans ?_
  refine (Cert.Bridge.out_eq x ei wl1 bl1 wr1 wl2 bl2 wr2 wfc bfc hx hwl1 hbl1 hwr1 hwl2 n).symm.trans ?_
  refine Eq.trans ?_ (Cert.KernelIdeal.KValue.kval_apply x ei wl1 bl1 wr1 wl2 bl2 wr2 wfc bfc n).symm
  rw [Cert.Bridge.sidx_eq, Cert.Bridge.gidx_eq]

end Cert.Final

end
-- ==== Proof.PreReal.lean ====
/-
  From the finiteness precondition to real inputs.

  The precondition is the conjunction, over the nine floating-point arguments, of "every entry has absolute value
  below plus infinity". On the extended reals the absolute value of x is the larger of x and -x, and the bit pattern
  0x7F800000 denotes the top element; so the comparison holding at an entry says that x and -x are both below the
  top, which excludes both infinities and leaves a real number. A conjunction of truth values that is one has every
  member one, and a reduction by "and" over all axes that is one has a one at every entry.
-/
import proofs.«102455_j22299470201097_2_alg».proof.Pre_finite_inputs
import proofs.«102455_j22299470201097_2_alg».proof.Proof.LibReal
import Idealize.ShloMosaic.Lib.ReduceAll
import Idealize.ShloMosaic.Lib.ValueIdx

noncomputable section

namespace Cert.PreReal

open Idealize.ShloMosaic Cert.Pre_finite_inputs
open Cert.Lib.IsR (IsR)

/-- The shape with no axes has one index. -/
instance : Subsingleton S_.Idx := ⟨fun _ _ => funext fun d => d.elim0⟩

/-- An extended real whose absolute value compares below the pattern of plus infinity is a real number. -/
theorem isR_of_abs_lt_inf (x : EReal)
    (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  have h2 : max x (-x) < ⊤ := by
    by_contra hn
    simp [Ideal.cmp, hn] at h
  rw [max_lt_iff] at h2
  induction x using EReal.rec with
  | bot => simp at h2
  | top => simp at h2
  | coe r => exact ⟨r, rfl⟩

/-- The whole-array test "all entries have absolute value below plus infinity", when it is one, makes every entry
    of the array a real number; for an array of any shape. -/
theorem real_of_all {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant (F := Ideal) S_ .f32 0x7F800000#32)))
          (constantI S_ 1 1#1) hr hu ValueIdx.ix0 = 1#1) :
    ∀ i, IsR (a i) := by
  intro i
  have e := Host.reduce_andi_all _ _ hr hu _ h i
  exact isR_of_abs_lt_inf (a i) e

variable [Facts]

/-- THE PRECONDITION GIVES REAL INPUTS. If the finiteness predicate of the ten arguments is one, every entry of
    each of the nine floating-point arguments is a real number. -/
theorem real_of_fn (a0 : FVec Ideal S100000x32 .f32) (a1 : IVec S2x1600000 32) (a2 : FVec Ideal S16x32 .f32)
    (a3 : FVec Ideal S16 .f32) (a4 : FVec Ideal S16x32 .f32) (a5 : FVec Ideal S8x16 .f32)
    (a6 : FVec Ideal S8 .f32) (a7 : FVec Ideal S8x16 .f32) (a8 : FVec Ideal S1x8 .f32) (a9 : FVec Ideal S1 .f32)
    (h : fn (F := Ideal) a0 a1 a2 a3 a4 a5 a6 a7 a8 a9 = fun _ => 1#1) :
    (∀ i, IsR (a0 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) ∧ (∀ i, IsR (a8 i)) ∧ (∀ i, IsR (a9 i)) := by
  have h0 := congrFun h ValueIdx.ix0
  dsimp only [fn, fn_part1, fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ a0 e0, real_of_all _ _ _ a2 e2, real_of_all _ _ _ a3 e3, real_of_all _ _ _ a4 e4,
    real_of_all _ _ _ a5 e5, real_of_all _ _ _ a6 e6, real_of_all _ _ _ a7 e7, real_of_all _ _ _ a8 e8,
    real_of_all _ _ _ a9 e9⟩

end Cert.PreReal

end
-- ==== Proof.lean ====
/-
  The certificate of the graph network: two mean-aggregation layers with a rectifier between them and a linear head,
  over 100000 nodes and 1600000 edges.

  The kernel program projects every feature row by the neighbour weights in a first grid launch, aggregates the
  projected rows over the edges on the host, and in a second launch scales the aggregate by the reciprocal of the
  node's divisor (the larger of its number of incoming edges and one), adds the bias and the root projection,
  rectifies, and projects the hidden row twice; the host aggregates again and a third launch forms the second layer
  and the head's weighted sum. The reference aggregates the unprojected rows, divides by the divisor and projects
  afterwards. Over the extended reals every float operation is exact, a change of float format is the identity and a
  matrix product into zeros is an inner product, so the two programs differ only in the order "project, aggregate,
  scale" against "aggregate, divide, project": for real inputs (the precondition) these agree, by distributivity and
  the exchange of two finite sums, and the hidden table stays real, so the law applies to the second layer as well.

  The three frames are the generated ones (the reference's is its generated run with the result dropped); the ideal
  pass rewrote nothing, so the preservation claim is trivial; the value claim joins the kernel's run, read through its
  six boundaries down to one function of the launched arguments, with the reference's generated run read at a node.
-/
import proofs.«102455_j22299470201097_2_alg».proof.Defs
import proofs.«102455_j22299470201097_2_alg».proof.Proof.Gen.Kernel
import proofs.«102455_j22299470201097_2_alg».proof.Proof.Gen.Kernel.Frame
import proofs.«102455_j22299470201097_2_alg».proof.Proof.Gen.KernelIdeal
import proofs.«102455_j22299470201097_2_alg».proof.Proof.Gen.KernelIdeal.Frame
import proofs.«102455_j22299470201097_2_alg».proof.Proof.Gen.ReferenceIdeal
import proofs.«102455_j22299470201097_2_alg».proof.Proof.Gen.Pre_finite_inputs
import proofs.«102455_j22299470201097_2_alg».proof.Proof.Gen.ReferenceIdeal.Run
import proofs.«102455_j22299470201097_2_alg».proof.Proof.Gen.ReferenceIdeal.Read
import proofs.«102455_j22299470201097_2_alg».proof.Proof.KRun
import proofs.«102455_j22299470201097_2_alg».proof.Proof.KChain
import proofs.«102455_j22299470201097_2_alg».proof.Proof.Final
import proofs.«102455_j22299470201097_2_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's run names its result
    as one function of the launched arguments, the reference's run as its composed term, and for real arguments the
    two are one function. -/
theorem algebraic : Cert.algebraic_KernelIdeal_ReferenceIdeal := by
  intro m ρ m' ρ' hpre hagree
  refine ⟨fun c => Cert.KernelIdeal.KChain.kval (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KChain.W6_v37 m ρ c), (h c).2⟩) (Cert.KernelIdeal.KRun.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    obtain ⟨h0, h2, h3, h4, h5, h6, h7, h8, h9⟩ := Cert.PreReal.real_of_fn _ _ _ _ _ _ _ _ _ _ (hpre c)
    exact Cert.Final.value_eq _ _ _ _ _ _ _ _ _ _ h0 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
